-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v43) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S64x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x128 : Shape := ⟨2, ![1, 128]⟩
abbrev S1x64 : Shape := ⟨2, ![1, 64]⟩
abbrev S2000x128 : Shape := ⟨2, ![2000, 128]⟩
abbrev S2000x1 : Shape := ⟨2, ![2000, 1]⟩
abbrev S850000x128 : Shape := ⟨2, ![850000, 128]⟩
abbrev S50000x64 : Shape := ⟨2, ![50000, 64]⟩
abbrev S2000x64 : Shape := ⟨2, ![2000, 64]⟩
abbrev S850000x64 : Shape := ⟨2, ![850000, 64]⟩

abbrev nBuf : Space → Nat
  | .hbm => 61
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S1x128, .f32⟩
  | .hbm, ⟨27, _⟩ => ⟨S1x64, .f32⟩
  | .hbm, ⟨28, _⟩ => ⟨S1x64, .f32⟩
  | .hbm, ⟨29, _⟩ => ⟨S50000x128, .bf16⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000x128, .bf16⟩
  | .hbm, ⟨39, _⟩ => ⟨S850000x128, .f32⟩
  | .hbm, ⟨40, _⟩ => ⟨S_, .f32⟩
  | .hbm, ⟨41, _⟩ => ⟨S50000x128, .f32⟩
  | .hbm, ⟨42, _⟩ => ⟨S850000x1, .i32⟩
  | .hbm, ⟨43, _⟩ => ⟨S50000x128, .f32⟩
  | .hbm, ⟨44, _⟩ => ⟨S50000x64, .bf16⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x64, .bf16⟩
  | .hbm, ⟨54, _⟩ => ⟨S850000x64, .f32⟩
  | .hbm, ⟨55, _⟩ => ⟨S_, .f32⟩
  | .hbm, ⟨56, _⟩ => ⟨S50000x64, .f32⟩
  | .hbm, ⟨57, _⟩ => ⟨S850000x1, .i32⟩
  | .hbm, ⟨58, _⟩ => ⟨S50000x64, .f32⟩
  | .hbm, ⟨59, _⟩ => ⟨S50000x64, .f32⟩
  | .hbm, ⟨60, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x64, .f32⟩
  | .local _ .vmem, ⟨13, _⟩ => ⟨S2000x64, .bf16⟩
  | .local _ .vmem, ⟨14, _⟩ => ⟨S2000x64, .bf16⟩
  | .local _ .vmem, ⟨15, _⟩ => ⟨S2000x64, .f32⟩
  | .local _ .vmem, ⟨16, _⟩ => ⟨S2000x64, .f32⟩
  | .local _ .vmem, ⟨17, _⟩ => ⟨S2000x1, .f32⟩
  | .local _ .vmem, ⟨18, _⟩ => ⟨S2000x1, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S64x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_c_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  shapeCasts_S128_S1x128 : S128.ShapeCasts S1x128
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  scatter_S50000_S850000x1_S850000_n_0_0_1_wf : ScatterDims.WF S50000 S850000x1 S850000 [] [0] [0] 1
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .bf16 = 32 ∨ (Rect.block (s := S50000x64) S2000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v42) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S50000x128, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x1, .f32⟩
  | .hbm, ⟨55, _⟩ => ⟨S850000x128, .f32⟩
  | .hbm, ⟨56, _⟩ => ⟨S850000x128, .f32⟩
  | .hbm, ⟨57, _⟩ => ⟨S_, .f32⟩
  | .hbm, ⟨58, _⟩ => ⟨S50000x128, .f32⟩
  | .hbm, ⟨59, _⟩ => ⟨S850000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x64, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .f32⟩
  | .hbm, ⟨77, _⟩ => ⟨S850000x1, .f32⟩
  | .hbm, ⟨78, _⟩ => ⟨S850000x64, .f32⟩
  | .hbm, ⟨79, _⟩ => ⟨S850000x64, .f32⟩
  | .hbm, ⟨80, _⟩ => ⟨S_, .f32⟩
  | .hbm, ⟨81, _⟩ => ⟨S50000x64, .f32⟩
  | .hbm, ⟨82, _⟩ => ⟨S850000x1, .i32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel program's run with every buffer named: every weakly fair execution from a memory with zero
  counters ends, without a fault, with each unscoped buffer of a core at the last boundary's contents `Gen.W7` — the
  fold of the host stretches and of the four regions' write-backs over the launch memory. In particular the two result
  arrays are `Gen.W7` read at their references, and the arguments are as launched.
-/
import proofs.«162422_j9251359556274_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments, the last thread state read against the final state: each result array ends at the last
    boundary's contents, each argument as launched. -/
theorem run_W7 : θ_run defs (onTc (τ := τ) (main (F := F))) ⟨m, fun _ => 0, ρ⟩ (fun r => ∀ c : Dev nD,
      r.2.mem ((c.tc : Thread nD τ).loc main_v42) = W7 m ρ c (Proc.devRef .tc main_v42)
      ∧ r.2.mem ((c.tc : Thread nD τ).loc main_v43) = W7 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v42 (by decide)),
       h c _ (mem_uc main_v43 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.RunValue

end
-- ==== Proof.Spec.lean ====
/-
  The four dense per-node maps of a two-layer graph convolution, index by index on the extended reals.

  Every map acts on a matrix of node rows `[n, ·]` and treats each row by itself, so one formula serves a block of rows
  and the whole array. `d` is a column `[n, 1]` of per-node scales (the inverse square root of the node's degree),
  `b` a bias row `[1, ·]`, `w` a weight matrix.
    scaledDense x w d   (r, c) ↦ (Σₖ x[r,k] · w[k,c]) · d[r]
    reluDense   g d b w (r, c) ↦ (Σₖ max (g[r,k] · d[r] + b[k]) 0 · w[k,c]) · d[r]
    scaleBias   g d b   (r, c) ↦ g[r,c] · d[r] + b[c]
    denseBias   h w b   (r, c) ↦ (Σₖ h[r,k] · w[k,c]) + b[c]
-/
import Idealize.ShloMosaic.PureOps.Ideal
import Idealize.ShloMosaic.Lib.ValueIdx

noncomputable section

namespace Cert.Gcn

open Idealize.ShloMosaic Idealize.ShloMosaic.ValueIdx

/-- A matrix `[n, k]` of extended reals. -/
abbrev Mat (n k : Nat) : Type := (⟨2, ![n, k]⟩ : Shape).Idx → EReal

/-- `(x · w)[r, c] · d[r]`: a dense transform of every node row, then the node's scale. -/
def scaledDense {n a b : Nat} (x : Mat n a) (w : Mat a b) (d : Mat n 1) : Mat n b :=
  fun i => (∑ k : Fin a, x (ix2 (i 0) k) * w (ix2 k (i 1))) * d (ix2 (i 0) 0)

/-- `(relu (g[r, ·] · d[r] + b) · w)[r, c] · d[r]`: finish one layer (scale, bias, rectify), transform, scale again. -/
def reluDense {n a b : Nat} (g : Mat n a) (d : Mat n 1) (bias : Mat 1 a) (w : Mat a b) : Mat n b :=
  fun i => (∑ k : Fin a, max (g (ix2 (i 0) k) * d (ix2 (i 0) 0) + bias (ix2 0 k)) 0 * w (ix2 k (i 1))) * d (ix2 (i 0) 0)

/-- `g[r, c] · d[r] + b[c]`: the node's scale, then the bias. -/
def scaleBias {n a : Nat} (g : Mat n a) (d : Mat n 1) (bias : Mat 1 a) : Mat n a :=
  fun i => g i * d (ix2 (i 0) 0) + bias (ix2 0 (i 1))

/-- `(h · w)[r, c] + b[c]`: a dense transform of every node row, then the bias. -/
def denseBias {n a b : Nat} (h : Mat n a) (w : Mat a b) (bias : Mat 1 b) : Mat n b :=
  fun i => (∑ k : Fin a, h (ix2 (i 0) k) * w (ix2 k (i 1))) + bias (ix2 0 (i 1))

end Cert.Gcn

end
-- ==== Proof.KernelValue.lean ====
/-
  What the idealized kernel program's buffers hold at each boundary of its run, as functions of the argument arrays.

  The host side builds, from the edge list, the source and destination node of every edge followed by one self-loop per
  node; the degree of a node (the number of edges arriving at it, a scatter-add of ones) and its scale, the inverse square
  root of the degree clipped below at one, as a column; and, between the dense regions, twice the same aggregation:
  gather the source node's row for every edge, add the rows of the edges arriving at each node.  The four regions apply the
  per-node dense maps of `Cert.Gcn` to whole arrays.  Reading the run's fold boundary by boundary gives the two results as
  one composed term of the arguments.
-/
import proofs.«162422_j9251359556274_2_alg».proof.Proof.Gen.KernelIdeal.Frame
import proofs.«162422_j9251359556274_2_alg».proof.Proof.Spec
import Idealize.ShloMosaic.Lib.StableHlo.Run
import Idealize.ShloMosaic.PureOps.Ideal

set_option maxRecDepth 16384

noncomputable section

namespace Cert.KernelIdeal.Net

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]

/-! ## The host-side terms -/

/-- Row `k` of the edge list followed by the node numbers `0 … 49999`: the edges' end nodes with the self-loops appended. -/
def endsOf (k : Fin 2) (x1 : (⟨S2x800000, .i32⟩ : BufTy).Contents (Elt F)) : (⟨S850000, .i32⟩ : BufTy).Contents (Elt F) :=
  match k with
  | ⟨0, _⟩ => concatenate S850000 0 [⟨S800000, shapeCast S800000 (extractStridedSlice S1x800000 ![0, 0] x1 slices_S2x800000_S1x800000_0_0) shapeCasts_S1x800000_S800000⟩, ⟨S50000, iotaInDim S50000 32 0⟩] concatenates_S800000_S50000_S850000_d0
  | ⟨1, _⟩ => concatenate S850000 0 [⟨S800000, shapeCast S800000 (extractStridedSlice S1x800000 ![1, 0] x1 slices_S2x800000_S1x800000_1_0) shapeCasts_S1x800000_S800000⟩, ⟨S50000, iotaInDim S50000 32 0⟩] concatenates_S800000_S50000_S850000_d0

/-- The source nodes as a column of row numbers for a gather: a negative number counts from the end. -/
def srcCol (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The destination nodes as a column of row numbers for a scatter, as they are. -/
def dstCol (v : (⟨S850000, .i32⟩ : BufTy).Contents (Elt F)) : (⟨S850000x1, .i32⟩ : BufTy).Contents (Elt F) :=
  broadcastInDim S850000x1 ![0] bcast_S850000_S850000x1_0 v

/-- A node's scale: the inverse square root of its degree (the edges arriving at it, self-loop included) clipped below at 1. -/
def scaleVec (x1 : (⟨S2x800000, .i32⟩ : BufTy).Contents (Elt F)) : (⟨S50000, .f32⟩ : BufTy).Contents (Elt F) :=
  Host.rsqrt (maximumf
    (Host.scatterAdd scatter_S50000_S850000x1_S850000_n_0_0_1 (broadcastInDim S50000 ![] bcast_S_S50000 (constant S_ .f32 0x00000000#32))
      (dstCol (endsOf 1 x1)) (broadcastInDim S850000 ![] bcast_S_S850000 (constant S_ .f32 0x3F800000#32)))
    (broadcastInDim S50000 ![] bcast_S_S50000 (constant S_ .f32 0x3F800000#32)))

/-- The scales as a column `[50000, 1]`. -/
def scaleCol (x1 : (⟨S2x800000, .i32⟩ : BufTy).Contents (Elt F)) : (⟨S50000x1, .f32⟩ : BufTy).Contents (Elt F) :=
  shapeCast S50000x1 (scaleVec x1) shapeCasts_S50000_S50000x1

/-- Aggregation of 128-wide rows: every edge takes its source node's row, every node adds the rows of the edges arriving at it. -/
def aggregate128 (x1 : (⟨S2x800000, .i32⟩ : BufTy).Contents (Elt F)) (hw : (⟨S50000x128, .bf16⟩ : BufTy).Contents (Elt F)) :
    (⟨S50000x128, .f32⟩ : BufTy).Contents (Elt F) :=
  Host.scatterAdd scatter_S50000x128_S850000x1_S850000x128_1_0_0_1
    (broadcastInDim S50000x128 ![] bcast_S_S50000x128 (constant S_ .f32 0x00000000#32)) (dstCol (endsOf 1 x1))
    (extf .f32 (Host.gather gather_S50000x128_S850000x1_S850000x128_1_0_n_n_0_1_1128 hw (srcCol (endsOf 0 x1))) bitsLt_bf16_f32)

/-- Aggregation of 64-wide rows. -/
def aggregate64 (x1 : (⟨S2x800000, .i32⟩ : BufTy).Contents (Elt F)) (hw : (⟨S50000x64, .bf16⟩ : BufTy).Contents (Elt F)) :
    (⟨S50000x64, .f32⟩ : BufTy).Contents (Elt F) :=
  Host.scatterAdd scatter_S50000x64_S850000x1_S850000x64_1_0_0_1
    (broadcastInDim S50000x64 ![] bcast_S_S50000x64 (constant S_ .f32 0x00000000#32)) (dstCol (endsOf 1 x1))
    (extf .f32 (Host.gather gather_S50000x64_S850000x1_S850000x64_1_0_n_n_0_1_164 hw (srcCol (endsOf 0 x1))) bitsLt_bf16_f32)

variable (m : (ℓ : Loc nD τ sig) → Buf (Elt F) ℓ) (ρ : Dev nD → PrngReg) (c : Dev nD)

/-! ## Boundary 1: after the first host stretch -/

theorem W1_v5 : W1 m ρ c (Proc.devRef .tc main_v5) = endsOf 0 (m ((c : Thread nD τ).loc main_arg1)) := by
  show StableHlo.after hostOps0 (W0 m ρ c) (Proc.devRef .tc main_v5) = _
  after_results
  rfl

theorem W1_v6 : W1 m ρ c (Proc.devRef .tc main_v6) = endsOf 1 (m ((c : Thread nD τ).loc main_arg1)) := by
  show StableHlo.after hostOps0 (W0 m ρ c) (Proc.devRef .tc main_v6) = _
  after_results
  rfl

theorem W1_v14 : W1 m ρ c (Proc.devRef .tc main_v14) = scaleCol (m ((c : Thread nD τ).loc main_arg1)) := by
  show StableHlo.after hostOps0 (W0 m ρ c) (Proc.devRef .tc main_v14) = _
  after_results
  rfl

theorem W1_v15 : W1 m ρ c (Proc.devRef .tc main_v15) = shapeCast S1x128 (m ((c : Thread nD τ).loc main_arg3)) shapeCasts_S128_S1x128 := by
  show StableHlo.after hostOps0 (W0 m ρ c) (Proc.devRef .tc main_v15) = _
  after_results
  rfl

theorem W1_v16 : W1 m ρ c (Proc.devRef .tc main_v16) = shapeCast S1x64 (m ((c : Thread nD τ).loc main_arg5)) shapeCasts_S64_S1x64 := by
  show StableHlo.after hostOps0 (W0 m ρ c) (Proc.devRef .tc main_v16) = _
  after_results
  rfl

theorem W1_v17 : W1 m ρ c (Proc.devRef .tc main_v17) = shapeCast S1x64 (m ((c : Thread nD τ).loc main_arg7)) shapeCasts_S64_S1x64 := by
  show StableHlo.after hostOps0 (W0 m ρ c) (Proc.devRef .tc main_v17) = _
  after_results
  rfl

/-! ## What each later boundary keeps of the host-side terms

A buffer that a stretch of host operations does not write, and that a region does not write back, holds at the next
boundary what it held at the last; an input array of a region is left as the region found it. -/

-- the edges' end nodes, up to the second host stretch's entry (boundary 4)
theorem W2_v5 : W2 m ρ c (Proc.devRef .tc main_v5) = endsOf 0 (m ((c : Thread nD τ).loc main_arg1)) := (W2_of_ne m ρ c main_v5 (by decide)).trans (W1_v5 m ρ c)
theorem W2_v6 : W2 m ρ c (Proc.devRef .tc main_v6) = endsOf 1 (m ((c : Thread nD τ).loc main_arg1)) := (W2_of_ne m ρ c main_v6 (by decide)).trans (W1_v6 m ρ c)
theorem W3_v5 : W3 m ρ c (Proc.devRef .tc main_v5) = endsOf 0 (m ((c : Thread nD τ).loc main_arg1)) := (StableHlo.after_of_forall_not_mem (b := Proc.devRef .tc main_v5) _ _ (List.forall_iff_forall_mem.mp (by
    simp only [hostOps0, hostOps1, hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v5 m ρ c)
theorem W3_v6 : W3 m ρ c (Proc.devRef .tc main_v6) = endsOf 1 (m ((c : Thread nD τ).loc main_arg1)) := (StableHlo.after_of_forall_not_mem (b := Proc.devRef .tc main_v6) _ _ (List.forall_iff_forall_mem.mp (by
    simp only [hostOps0, hostOps1, hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v6 m ρ c)
theorem W4_v5 : W4 m ρ c (Proc.devRef .tc main_v5) = endsOf 0 (m ((c : Thread nD τ).loc main_arg1)) := (W4_of_ne m ρ c main_v5 (by decide)).trans (W3_v5 m ρ c)
theorem W4_v6 : W4 m ρ c (Proc.devRef .tc main_v6) = endsOf 1 (m ((c : Thread nD τ).loc main_arg1)) := (W4_of_ne m ρ c main_v6 (by decide)).trans (W3_v6 m ρ c)

-- the scale column, an input array of regions 0, 1 and 2
theorem W2_v14 : W2 m ρ c (Proc.devRef .tc main_v14) = scaleCol (m ((c : Thread nD τ).loc main_arg1)) := ((W2_arr m ρ c 2).trans (((dat0 (V1 m ρ) c).arrAt_in 2 rfl _).trans (A_eq0 (V1 m ρ) c 2))).trans (W1_v14 m ρ c)
theorem W3_v14 : W3 m ρ c (Proc.devRef .tc main_v14) = scaleCol (m ((c : Thread nD τ).loc main_arg1)) := (StableHlo.after_of_forall_not_mem (b := Proc.devRef .tc main_v14) _ _ (List.forall_iff_forall_mem.mp (by
    simp only [hostOps0, hostOps1, hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v14 m ρ c)
theorem W4_v14 : W4 m ρ c (Proc.devRef .tc main_v14) = scaleCol (m ((c : Thread nD τ).loc main_arg1)) := ((W4_arr m ρ c 1).trans (((dat1 (V3 m ρ) c).arrAt_in 1 rfl _).trans (A_eq1 (V3 m ρ) c 1))).trans (W3_v14 m ρ c)
theorem W5_v14 : W5 m ρ c (Proc.devRef .tc main_v14) = scaleCol (m ((c : Thread nD τ).loc main_arg1)) := (StableHlo.after_of_forall_not_mem (b := Proc.devRef .tc main_v14) _ _ (List.forall_iff_forall_mem.mp (by
    simp only [hostOps0, hostOps1, hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_v14 m ρ c)

-- the first bias as a row, an input array of region 1
theorem W2_v15 : W2 m ρ c (Proc.devRef .tc main_v15) = shapeCast S1x128 (m ((c : Thread nD τ).loc main_arg3)) shapeCasts_S128_S1x128 :=
  (W2_of_ne m ρ c main_v15 (by decide)).trans (W1_v15 m ρ c)
theorem W3_v15 : W3 m ρ c (Proc.devRef .tc main_v15) = shapeCast S1x128 (m ((c : Thread nD τ).loc main_arg3)) shapeCasts_S128_S1x128 :=
  (StableHlo.after_of_forall_not_mem (b := Proc.devRef .tc main_v15) _ _ (List.forall_iff_forall_mem.mp (by
    simp only [hostOps0, hostOps1, hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v15 m ρ c)

-- the second bias as a row, an input array of region 2
theorem W2_v16 : W2 m ρ c (Proc.devRef .tc main_v16) = shapeCast S1x64 (m ((c : Thread nD τ).loc main_arg5)) shapeCasts_S64_S1x64 :=
  (W2_of_ne m ρ c main_v16 (by decide)).trans (W1_v16 m ρ c)
theorem W3_v16 : W3 m ρ c (Proc.devRef .tc main_v16) = shapeCast S1x64 (m ((c : Thread nD τ).loc main_arg5)) shapeCasts_S64_S1x64 :=
  (StableHlo.after_of_forall_not_mem (b := Proc.devRef .tc main_v16) _ _ (List.forall_iff_forall_mem.mp (by
    simp only [hostOps0, hostOps1, hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v16 m ρ c)
theorem W4_v16 : W4 m ρ c (Proc.devRef .tc main_v16) = shapeCast S1x64 (m ((c : Thread nD τ).loc main_arg5)) shapeCasts_S64_S1x64 :=
  (W4_of_ne m ρ c main_v16 (by decide)).trans (W3_v16 m ρ c)
theorem W5_v16 : W5 m ρ c (Proc.devRef .tc main_v16) = shapeCast S1x64 (m ((c : Thread nD τ).loc main_arg5)) shapeCasts_S64_S1x64 :=
  (StableHlo.after_of_forall_not_mem (b := Proc.devRef .tc main_v16) _ _ (List.forall_iff_forall_mem.mp (by
    simp only [hostOps0, hostOps1, hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_v16 m ρ c)

-- the classifier's bias as a row, an input array of region 3
theorem W2_v17 : W2 m ρ c (Proc.devRef .tc main_v17) = shapeCast S1x64 (m ((c : Thread nD τ).loc main_arg7)) shapeCasts_S64_S1x64 :=
  (W2_of_ne m ρ c main_v17 (by decide)).trans (W1_v17 m ρ c)
theorem W3_v17 : W3 m ρ c (Proc.devRef .tc main_v17) = shapeCast S1x64 (m ((c : Thread nD τ).loc main_arg7)) shapeCasts_S64_S1x64 :=
  (StableHlo.after_of_forall_not_mem (b := Proc.devRef .tc main_v17) _ _ (List.forall_iff_forall_mem.mp (by
    simp only [hostOps0, hostOps1, hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v17 m ρ c)
theorem W4_v17 : W4 m ρ c (Proc.devRef .tc main_v17) = shapeCast S1x64 (m ((c : Thread nD τ).loc main_arg7)) shapeCasts_S64_S1x64 :=
  (W4_of_ne m ρ c main_v17 (by decide)).trans (W3_v17 m ρ c)
theorem W5_v17 : W5 m ρ c (Proc.devRef .tc main_v17) = shapeCast S1x64 (m ((c : Thread nD τ).loc main_arg7)) shapeCasts_S64_S1x64 :=
  (StableHlo.after_of_forall_not_mem (b := Proc.devRef .tc main_v17) _ _ (List.forall_iff_forall_mem.mp (by
    simp only [hostOps0, hostOps1, hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_v17 m ρ c)
theorem W6_v17 : W6 m ρ c (Proc.devRef .tc main_v17) = shapeCast S1x64 (m ((c : Thread nD τ).loc main_arg7)) shapeCasts_S64_S1x64 :=
  (W6_of_ne m ρ c main_v17 (by decide)).trans (W5_v17 m ρ c)

-- the weight matrices and the node features: arguments, never written
theorem W1_arg0 : W1 m ρ c (Proc.devRef .tc main_arg0) = m ((c : Thread nD τ).loc main_arg0) := (StableHlo.after_of_forall_not_mem (b := Proc.devRef .tc main_arg0) _ _ (List.forall_iff_forall_mem.mp (by
    simp only [hostOps0, hostOps1, hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem W1_arg2 : W1 m ρ c (Proc.devRef .tc main_arg2) = m ((c : Thread nD τ).loc main_arg2) := (StableHlo.after_of_forall_not_mem (b := Proc.devRef .tc main_arg2) _ _ (List.forall_iff_forall_mem.mp (by
    simp only [hostOps0, hostOps1, hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem W1_arg4 : W1 m ρ c (Proc.devRef .tc main_arg4) = m ((c : Thread nD τ).loc main_arg4) := (StableHlo.after_of_forall_not_mem (b := Proc.devRef .tc main_arg4) _ _ (List.forall_iff_forall_mem.mp (by
    simp only [hostOps0, hostOps1, hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem W3_arg4 : W3 m ρ c (Proc.devRef .tc main_arg4) = m ((c : Thread nD τ).loc main_arg4) :=
  (StableHlo.after_of_forall_not_mem (b := Proc.devRef .tc main_arg4) _ _ (List.forall_iff_forall_mem.mp (by
    simp only [hostOps0, hostOps1, hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ((W2_of_ne m ρ c main_arg4 (by decide)).trans (W1_arg4 m ρ c))
theorem W6_arg6 : W6 m ρ c (Proc.devRef .tc main_arg6) = m ((c : Thread nD τ).loc main_arg6) :=
  ((W7_arr m ρ c 1).trans (((dat3 (V6 m ρ) c).arrAt_in 1 rfl _).trans (A_eq3 (V6 m ρ) c 1))).symm.trans (W7_main_arg6 m ρ c)

/-! ## The two aggregations, between the regions -/

theorem W3_v29 : W3 m ρ c (Proc.devRef .tc main_v29) = aggregate128 (m ((c : Thread nD τ).loc main_arg1)) (W2 m ρ c (Proc.devRef .tc main_v18)) := by
  show StableHlo.after hostOps1 (W2 m ρ c) (Proc.devRef .tc main_v29) = _
  after_results
  rw [W2_v5, W2_v6]
  rfl

theorem W5_v41 : W5 m ρ c (Proc.devRef .tc main_v41) = aggregate64 (m ((c : Thread nD τ).loc main_arg1)) (W4 m ρ c (Proc.devRef .tc main_v30)) := by
  show StableHlo.after hostOps2 (W4 m ρ c) (Proc.devRef .tc main_v41) = _
  after_results
  rw [W4_v5, W4_v6]
  rfl

end Cert.KernelIdeal.Net

/-! ## The four regions' outputs, and the results -/

namespace Cert.KernelIdeal.Net

open Cert.KernelIdeal Cert.KernelIdeal.Gen
open Idealize.ShloMosaic Idealize.ShloMosaic.TcCoe Idealize.ShloMosaic.Tactic Idealize.SL.Sem Idealize.ShloMosaic.StableHlo

/-- The second layer's output as a term of the arguments: transform and scale, aggregate, finish the first layer and
    transform and scale again, aggregate, finish the second layer. -/
def hidden (x0 : (⟨S50000x128, .f32⟩ : BufTy).Contents (Elt Ideal)) (x1 : (⟨S2x800000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal)) :
    (⟨S50000x64, .f32⟩ : BufTy).Contents (Elt Ideal) :=
  Cert.Gcn.scaleBias
    (aggregate64 x1 (Cert.Gcn.reluDense (aggregate128 x1 (Cert.Gcn.scaledDense x0 x2 (scaleCol x1))) (scaleCol x1)
      (shapeCast S1x128 x3 shapeCasts_S128_S1x128) x4))
    (scaleCol x1) (shapeCast S1x64 x5 shapeCasts_S64_S1x64)

/-- The classifier applied to the second layer's output. -/
def logits (h : (⟨S50000x64, .f32⟩ : BufTy).Contents (Elt Ideal)) (x6 : (⟨S64x64, .f32⟩ : BufTy).Contents (Elt Ideal))
    (x7 : (⟨S64, .f32⟩ : BufTy).Contents (Elt Ideal)) : (⟨S50000x64, .f32⟩ : BufTy).Contents (Elt Ideal) :=
  Cert.Gcn.denseBias h x6 (shapeCast S1x64 x7 shapeCasts_S64_S1x64)

/-- Buffer contents at a region's entry, per core and reference. -/
abbrev Entry : Type := (c : Dev nD) → (b : Ref sig .tc) → Buf (Elt Ideal) ((c : Thread nD τ).loc b)

variable (m : (ℓ : Loc nD τ sig) → Buf (Elt Ideal) ℓ) (ρ : Dev nD → PrngReg) (c : Dev nD)
variable (hf0 : ∀ (V : Entry) (c : Dev nD), (dat0 (F := Ideal) V c).arrAt 3 cfg0.N = Cert.Gcn.scaledDense (V c main_arg0) (V c main_arg2) (V c main_v14))
variable (hf1 : ∀ (V : Entry) (c : Dev nD), (dat1 (F := Ideal) V c).arrAt 4 cfg1.N = Cert.Gcn.reluDense (V c main_v29) (V c main_v14) (V c main_v15) (V c main_arg4))
variable (hf2 : ∀ (V : Entry) (c : Dev nD), (dat2 (F := Ideal) V c).arrAt 3 cfg2.N = Cert.Gcn.scaleBias (V c main_v41) (V c main_v14) (V c main_v16))
variable (hf3 : ∀ (V : Entry) (c : Dev nD), (dat3 (F := Ideal) V c).arrAt 3 cfg3.N = Cert.Gcn.denseBias (V c main_v42) (V c main_arg6) (V c main_v17))

include hf0 in
/-- Region 0 leaves the scaled first transform. -/
theorem W2_v18 : W2 m ρ c (Proc.devRef .tc main_v18)
    = Cert.Gcn.scaledDense (m ((c : Thread nD τ).loc main_arg0)) (m ((c : Thread nD τ).loc main_arg2)) (scaleCol (m ((c : Thread nD τ).loc main_arg1))) := by
  refine (W2_arr m ρ c 3).trans ((hf0 (V1 m ρ) c).trans ?_)
  show Cert.Gcn.scaledDense (W1 m ρ c (Proc.devRef .tc main_arg0)) (W1 m ρ c (Proc.devRef .tc main_arg2)) (W1 m ρ c (Proc.devRef .tc main_v14)) = _
  rw [W1_arg0, W1_arg2, W1_v14]

include hf0 hf1 in
/-- Region 1 leaves the scaled second transform of the finished first layer. -/
theorem W4_v30 : W4 m ρ c (Proc.devRef .tc main_v30)
    = Cert.Gcn.reluDense (aggregate128 (m ((c : Thread nD τ).loc main_arg1)) (Cert.Gcn.scaledDense (m ((c : Thread nD τ).loc main_arg0)) (m ((c : Thread nD τ).loc main_arg2)) (scaleCol (m ((c : Thread nD τ).loc main_arg1)))))
        (scaleCol (m ((c : Thread nD τ).loc main_arg1))) (shapeCast S1x128 (m ((c : Thread nD τ).loc main_arg3)) shapeCasts_S128_S1x128) (m ((c : Thread nD τ).loc main_arg4)) := by
  refine (W4_arr m ρ c 4).trans ((hf1 (V3 m ρ) c).trans ?_)
  show Cert.Gcn.reluDense (W3 m ρ c (Proc.devRef .tc main_v29)) (W3 m ρ c (Proc.devRef .tc main_v14)) (W3 m ρ c (Proc.devRef .tc main_v15)) (W3 m ρ c (Proc.devRef .tc main_arg4)) = _
  rw [W3_v29, W3_v14, W3_v15, W3_arg4, W2_v18 m ρ c hf0]

include hf0 hf1 hf2 in
/-- Region 2 leaves the second layer's output. -/
theorem W6_v42 : W6 m ρ c (Proc.devRef .tc main_v42)
    = hidden (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) := by
  refine (W6_arr m ρ c 3).trans ((hf2 (V5 m ρ) c).trans ?_)
  show Cert.Gcn.scaleBias (W5 m ρ c (Proc.devRef .tc main_v41)) (W5 m ρ c (Proc.devRef .tc main_v14)) (W5 m ρ c (Proc.devRef .tc main_v16)) = _
  rw [W5_v41, W5_v14, W5_v16, W4_v30 m ρ c hf0 hf1]
  rfl

include hf0 hf1 hf2 in
/-- The first result: region 3 reads the second layer's output and leaves it as it found it. -/
theorem W7_v42 : W7 m ρ c (Proc.devRef .tc main_v42)
    = hidden (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) :=
  ((W7_arr m ρ c 0).trans (((dat3 (V6 m ρ) c).arrAt_in 0 rfl _).trans (A_eq3 (V6 m ρ) c 0))).trans (W6_v42 m ρ c hf0 hf1 hf2)

include hf0 hf1 hf2 hf3 in
/-- The second result: the classifier of the second layer's output. -/
theorem W7_v43 : W7 m ρ c (Proc.devRef .tc main_v43)
    = logits (hidden (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5))) (m ((c : Thread nD τ).loc main_arg6)) (m ((c : Thread nD τ).loc main_arg7)) := by
  refine (W7_arr m ρ c 3).trans ((hf3 (V6 m ρ) c).trans ?_)
  show Cert.Gcn.denseBias (W6 m ρ c (Proc.devRef .tc main_v42)) (W6 m ρ c (Proc.devRef .tc main_arg6)) (W6 m ρ c (Proc.devRef .tc main_v17)) = _
  rw [W6_v42 m ρ c hf0 hf1 hf2, W6_arg6, W6_v17]
  rfl

end Cert.KernelIdeal.Net

end
-- ==== Proof.LibDot.lean ====
/-
  A product of two matrices at one entry is a sum over the one contracted axis.  Two such sums — over different
  dimension records, of different operands — are equal as soon as their factors agree position by position
  along that axis.  This is what identifies a row block's product with the matching rows of the whole product:
  the block's row r of the left operand IS row (block offset + r) of the whole left operand, the right operand
  is the same matrix, and the contracted positions correspond one to one.
-/
import Idealize.ShloMosaic.Lib.ValueIdx
import Idealize.ShloMosaic.PureOps.Ideal.Laws

noncomputable section

namespace Cert.LibDot

open Idealize.ShloMosaic Idealize.ShloMosaic.ValueIdx

/-- The sum over a one-axis contraction index, re-indexed by the axis's positions `0 … n-1`. -/
theorem sum_contr {sl sr so : Shape} (d : DotDims sl sr so) (n : Nat) (hr : d.contr.rank = 1)
    (hs : d.contr.size ⟨0, by omega⟩ = n) (f : d.contr.Idx → EReal) :
    ∑ k : d.contr.Idx, f k = ∑ k : Fin n, f ((contrEquiv1 d n hr hs).symm k) :=
  (Equiv.sum_comp (contrEquiv1 d n hr hs).symm f).symm

/-- Two one-axis contractions of the same length whose left factors agree at every position, and whose right
    factors do, are the same sum. -/
theorem dot_sum_eq {sl sr so sl' sr' so' : Shape} (d : DotDims sl sr so) (d' : DotDims sl' sr' so') (n : Nat)
    (hr : d.contr.rank = 1) (hs : d.contr.size ⟨0, by omega⟩ = n)
    (hr' : d'.contr.rank = 1) (hs' : d'.contr.size ⟨0, by omega⟩ = n)
    (A : sl.Idx → EReal) (B : sr.Idx → EReal) (A' : sl'.Idx → EReal) (B' : sr'.Idx → EReal) (j : so.Idx) (j' : so'.Idx)
    (hA : ∀ k : Fin n, A (d.lhsIdx j ((contrEquiv1 d n hr hs).symm k)) = A' (d'.lhsIdx j' ((contrEquiv1 d' n hr' hs').symm k)))
    (hB : ∀ k : Fin n, B (d.rhsIdx j ((contrEquiv1 d n hr hs).symm k)) = B' (d'.rhsIdx j' ((contrEquiv1 d' n hr' hs').symm k))) :
    ∑ k : d.contr.Idx, A (d.lhsIdx j k) * B (d.rhsIdx j k) = ∑ k : d'.contr.Idx, A' (d'.lhsIdx j' k) * B' (d'.rhsIdx j' k) := by
  rw [sum_contr d n hr hs, sum_contr d' n hr' hs']
  exact Finset.sum_congr rfl fun k _ => by rw [hA k, hB k]

/-- A block product into the zero accumulator against the host's whole product, entry against entry: equal when
    the factors agree along the contracted axis. -/
theorem matmul_eq_dotGeneral {sl sr so sl' sr' so' : Shape} {φ₁ φ₂ φ₁' φ₂' : FTy}
    (d : DotDims sl sr so) (d' : DotDims sl' sr' so') (n : Nat)
    (hr : d.contr.rank = 1) (hs : d.contr.size ⟨0, by omega⟩ = n)
    (hr' : d'.contr.rank = 1) (hs' : d'.contr.size ⟨0, by omega⟩ = n)
    (prec prec' : Option ContractPrecision) (sched : HostSchedule)
    (A : FVec Ideal sl φ₁) (B : FVec Ideal sr φ₂) (A' : FVec Ideal sl' φ₁') (B' : FVec Ideal sr' φ₂') (j : so.Idx) (j' : so'.Idx)
    (hA : ∀ k : Fin n, A (d.lhsIdx j ((contrEquiv1 d n hr hs).symm k)) = A' (d'.lhsIdx j' ((contrEquiv1 d' n hr' hs').symm k)))
    (hB : ∀ k : Fin n, B (d.rhsIdx j ((contrEquiv1 d n hr hs).symm k)) = B' (d'.rhsIdx j' ((contrEquiv1 d' n hr' hs').symm k))) :
    FloatOps.matmul d prec A B (constant so .f32 0x00000000#32) j = FloatOps.dotGeneral d' prec' sched A' B' j' := by
  rw [Ideal.matmul_constant_zero_apply, Ideal.dotGeneral_apply]
  exact dot_sum_eq d d' n hr hs hr' hs' A B A' B' j j' hA hB

end Cert.LibDot

end
-- ==== Proof.LibKeepdims.lean ====
/-
  The layout operations a keepdims reduction leaves around it, read at an index, and the two one-axis sums of a matrix.

  A column [a, 1] broadcast along its unit axis to [a, b] reads row p's one element at every (p, c); a single element
  [1, 1] broadcast to [a, b] reads that element everywhere; a column [n, 1] reshaped to a row [1, n] keeps the order of its
  elements. At the exact instance a sum of a matrix [a, b] along its second axis is, at row r, the sum of that row, and a
  sum of a column [a, 1] along its first axis is the sum of the column.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

section Layout
variable {α : Type}

/-- A column [a, 1] broadcast to [a, b], read at (p, c), is the column at (p, 0). -/
theorem broadcastTo_col_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single element [1, 1] broadcast to [a, b], read anywhere, is that element. -/
theorem broadcastTo_unit_apply {a b : ℕ} (v : (⟨2, ![1, 1]⟩ : Shape).Idx → α)
    (h : (⟨2, ![1, 1]⟩ : Shape).Broadcasts ⟨2, ![a, b]⟩) (j : (⟨2, ![a, b]⟩ : Shape).Idx) :
    broadcastTo ⟨2, ![a, b]⟩ v h j = v (ix2 (0 : Fin 1) (0 : Fin 1)) := by
  refine broadcastTo_apply v h j (ix2 (0 : Fin 1) (0 : Fin 1)) fun ax => ?_
  match ax with
  | ⟨0, _⟩ => rfl
  | ⟨1, _⟩ => rfl

/-- A column [n, 1] reshaped to a row [1, n], read at (0, j), is the column at (j, 0). -/
theorem shapeCast_col_row_apply {n : ℕ} (x : (⟨2, ![n, 1]⟩ : Shape).Idx → α)
    (h : (⟨2, ![n, 1]⟩ : Shape).ShapeCasts ⟨2, ![1, n]⟩) (j : Fin n) :
    shapeCast ⟨2, ![1, n]⟩ x h (ix2 (0 : Fin 1) j) = x (ix2 j (0 : Fin 1)) := by
  refine shapeCast_apply x h _ _ ?_
  rw [Shape.rowMajor_val_two, Shape.rowMajor_val_two]
  show j.val * 1 + 0 = 0 * n + j.val
  omega

end Layout

section Sums

/-- The sum of a matrix [a, b] along its second axis, at row r: the sum of row r. -/
theorem sum_lanes_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.f32).bits) = FKind.add.neutral .f32 hφ) (r : Fin a) :
    multiReduction .add [1] ⟨1, ![a]⟩ src 0x00000000#32 h hφ hacc (ix1 r) = ∑ c : Fin b, src (ix2 r c) := by
  refine (Ideal.multiReduction_add_single src 0x00000000#32 h hφ hacc (ix1 r)).trans ?_
  refine Finset.sum_congr rfl fun c _ => congrArg src ?_
  funext d
  apply Fin.ext
  match d with
  | ⟨0, _⟩ => rfl
  | ⟨1, _⟩ => rfl

/-- The sum of a column [a, 1] along its first axis: the sum of the column. -/
theorem sum_rows_apply {a : ℕ} (src : FVec Ideal ⟨2, ![a, 1]⟩ .f32)
    (h : (⟨2, ![a, 1]⟩ : Shape).Reduces [0] ⟨1, ![1]⟩) (hφ : FKind.Formats .f32)
    (hacc : (0x00000000#32 : BitVec (FTy.f32).bits) = FKind.add.neutral .f32 hφ) :
    multiReduction .add [0] ⟨1, ![1]⟩ src 0x00000000#32 h hφ hacc (ix1 (0 : Fin 1))
      = ∑ r : Fin a, src (ix2 r (0 : Fin 1)) := by
  refine (Ideal.multiReduction_add_single src 0x00000000#32 h hφ hacc (ix1 (0 : Fin 1))).trans ?_
  refine Finset.sum_congr rfl fun r _ => congrArg src ?_
  funext d
  apply Fin.ext
  match d with
  | ⟨0, _⟩ => rfl
  | ⟨1, _⟩ => rfl

end Sums

end Cert.LibKeepdims

end
-- ==== Proof.Region0.lean ====
/-
  The value of the first pallas_call region: a dense transform of every node row, then the node's scale.

  The region walks the 50000 node rows in 25 blocks of 2000. At a block it multiplies the block's feature rows
  [2000, 128] by the whole weight matrix [128, 128] into a zero accumulator and scales row r of the product by the
  block's entry r of the scale column [2000, 1]; the changes of float format around the product are the identity on
  the extended reals. Entry (p, q) of what a block leaves is therefore

      (Σₖ x[p, k] · w[k, q]) · d[p]

  of the block's own rows: `Cert.Gcn.scaledDense` of the blocks. Since that formula treats each row by itself and the
  feature, scale and output windows all sit on the same row block (the weight window on the whole matrix), block t of
  the output is block t of `Cert.Gcn.scaledDense` of the whole arrays; the 25 blocks tile the output array (row r lies
  in block r / 2000), so after the region the array IS that function of the arrays as the region found them.
-/
import proofs.«162422_j9251359556274_2_alg».proof.Proof.Gen.KernelIdeal.Frame
import proofs.«162422_j9251359556274_2_alg».proof.Proof.Spec
import proofs.«162422_j9251359556274_2_alg».proof.Proof.LibDot
import proofs.«162422_j9251359556274_2_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The block's arithmetic at an entry -/

/-- On the rows' axis the left operand's index is the output's row, whatever the contracted position. -/
theorem lhs_row_dot0 (j : S2000x128.Idx) (kk : dot_S2000x128_S128x128_S2000x128_1_0_0_1_n_n.contr.Idx) :
    (dot_S2000x128_S128x128_S2000x128_1_0_0_1_n_n.lhsIdx j kk 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

/-- On the columns' axis the right operand's index is the output's column. -/
theorem rhs_col_dot0 (j : S2000x128.Idx) (kk : dot_S2000x128_S128x128_S2000x128_1_0_0_1_n_n.contr.Idx) :
    (dot_S2000x128_S128x128_S2000x128_1_0_0_1_n_n.rhsIdx j kk 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The left operand's index of the block product at entry (p, q) and contracted position k is (p, k). -/
theorem lhsIdx_dot0 (p : Fin 2000) (q : Fin 128) (k : Fin 128) :
    dot_S2000x128_S128x128_S2000x128_1_0_0_1_n_n.lhsIdx (ix2 p q) ((contrEquiv1 dot_S2000x128_S128x128_S2000x128_1_0_0_1_n_n 128 rfl rfl).symm k) = ix2 p k :=
  funext fun a => Fin.ext (by
    match a with
    | ⟨0, _⟩ => exact lhs_row_dot0 _ _
    | ⟨1, _⟩ => exact (dot_S2000x128_S128x128_S2000x128_1_0_0_1_n_n.lhsIdx_val_of_single rfl _ _).trans (contrEquiv1_symm_val dot_S2000x128_S128x128_S2000x128_1_0_0_1_n_n 128 rfl rfl k))

/-- The right operand's index there is (k, q). -/
theorem rhsIdx_dot0 (p : Fin 2000) (q : Fin 128) (k : Fin 128) :
    dot_S2000x128_S128x128_S2000x128_1_0_0_1_n_n.rhsIdx (ix2 p q) ((contrEquiv1 dot_S2000x128_S128x128_S2000x128_1_0_0_1_n_n 128 rfl rfl).symm k) = ix2 k q :=
  funext fun a => Fin.ext (by
    match a with
    | ⟨0, _⟩ => exact (dot_S2000x128_S128x128_S2000x128_1_0_0_1_n_n.rhsIdx_val_of_single rfl _ _).trans (contrEquiv1_symm_val dot_S2000x128_S128x128_S2000x128_1_0_0_1_n_n 128 rfl rfl k)
    | ⟨1, _⟩ => exact rhs_col_dot0 _ _)

/-- WHAT THE BODY STORES, at entry (p, q): (Σₖ x0[p, k] · x1[k, q]) · x2[p] of the three loaded blocks. The product
    accumulates into zero, the scale column is broadcast along its unit axis, and every change of float format is the
    identity on the extended reals. -/
theorem pay0_apply (x0 : Vec Ideal S2000x128 .f32) (x1 : Vec Ideal S128x128 .f32) (x2 : Vec Ideal S2000x1 .f32)
    (p : Fin 2000) (q : Fin 128) :
    k0_pay1 (F := Ideal) x0 x1 x2 (ix2 p q) = Cert.Gcn.scaledDense x0 x1 x2 (ix2 p q) := by
  unfold k0_pay1
  rw [truncf_apply, mulf_apply, shapeCast_self, Cert.LibKeepdims.broadcastTo_col_apply]
  simp only [matmul]
  rw [Ideal.matmul_constant_zero_apply, Cert.LibDot.sum_contr dot_S2000x128_S128x128_S2000x128_1_0_0_1_n_n 128 rfl rfl]
  show _ = (∑ k : Fin 128, x0 (ix2 p k) * x1 (ix2 k q)) * x2 (ix2 p 0)
  congr 1
  refine Finset.sum_congr rfl fun k _ => ?_
  rw [truncf_apply, truncf_apply, lhsIdx_dot0, rhsIdx_dot0]

/-! ## From the blocks to the arrays -/

variable (V : (c : Dev nD) → (b : Ref sig .tc) → Buf (Elt Ideal) ((c : Thread nD τ).loc b))

/-- The body's loads and its store start at offset (0, 0) of their blocks. -/
theorem zero_offsets0 : (![0, 0] : Fin 2 → Nat) = fun _ => 0 := funext fun a => by fin_cases a <;> rfl

/-- The printed index maps, decided over the 25 grid points: the node-row windows (the features, the scales) sit on
    the output's row block and on column block 0; the weight window stays on block (0, 0). -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 :=
  (by decide +kernel : ∀ t : Fin grid0.N, _)

/-- Row p, column k of the feature block at point t is, in the feature array, the row the output's block puts p on,
    column k. -/
theorem emb0_feat (t : Fin cfg0.N) (p : Fin 2000) (q k : Fin 128) :
    ((cfg0.win 0).blk t).view.emb (ix2 p k) = ix2 ((((cfg0.win 3).blk t).view.emb (ix2 p q)) 0) k := by
  obtain ⟨e0, e1, e2, e3, e4, e5, e6⟩ := idx_facts0 t
  funext a; apply Fin.ext
  match a with
  | ⟨0, _⟩ => show win0_0.index t (0 : Fin 2) * 2000 + 1 * p.val = win0_3.index t (0 : Fin 2) * 2000 + 1 * p.val; omega
  | ⟨1, _⟩ => show win0_0.index t (1 : Fin 2) * 128 + 1 * k.val = k.val; omega

/-- The weight block is the weight matrix: its entry (k, q) is the matrix's entry (k, the output's column). -/
theorem emb0_weight (t : Fin cfg0.N) (p : Fin 2000) (q k : Fin 128) :
    ((cfg0.win 1).blk t).view.emb (ix2 k q) = ix2 k ((((cfg0.win 3).blk t).view.emb (ix2 p q)) 1) := by
  obtain ⟨e0, e1, e2, e3, e4, e5, e6⟩ := idx_facts0 t
  funext a; apply Fin.ext
  match a with
  | ⟨0, _⟩ => show win0_1.index t (0 : Fin 2) * 128 + 1 * k.val = k.val; omega
  | ⟨1, _⟩ => show win0_1.index t (1 : Fin 2) * 128 + 1 * q.val = win0_3.index t (1 : Fin 2) * 128 + 1 * q.val; omega

/-- Entry p of the scale block at point t is, in the scale column, the row the output's block puts p on. -/
theorem emb0_scale (t : Fin cfg0.N) (p : Fin 2000) (q : Fin 128) :
    ((cfg0.win 2).blk t).view.emb (ix2 p (0 : Fin 1)) = ix2 ((((cfg0.win 3).blk t).view.emb (ix2 p q)) 0) (0 : Fin 1) := by
  obtain ⟨e0, e1, e2, e3, e4, e5, e6⟩ := idx_facts0 t
  funext a; apply Fin.ext
  match a with
  | ⟨0, _⟩ => show win0_2.index t (0 : Fin 2) * 2000 + 1 * p.val = win0_3.index t (0 : Fin 2) * 2000 + 1 * p.val; omega
  | ⟨1, _⟩ => show win0_2.index t (1 : Fin 2) * 1 + 1 * 0 = 0; omega

/-- The transform of the blocks at point t, at entry (p, q) of the block, is the transform of the whole arrays at the
    array index the output's block puts (p, q) on: rows are treated one by one, and the blocks cut rows. -/
theorem scaledDense_block0 (X : Cert.Gcn.Mat 50000 128) (W : Cert.Gcn.Mat 128 128) (D : Cert.Gcn.Mat 50000 1)
    (t : Fin cfg0.N) (p : Fin 2000) (q : Fin 128) :
    Cert.Gcn.scaledDense (((cfg0.win 0).blk t).view.read (Elt Ideal) X) (((cfg0.win 1).blk t).view.read (Elt Ideal) W)
        (((cfg0.win 2).blk t).view.read (Elt Ideal) D) (ix2 p q)
      = Cert.Gcn.scaledDense X W D (((cfg0.win 3).blk t).view.emb (ix2 p q)) := by
  show (∑ k : Fin 128, X (((cfg0.win 0).blk t).view.emb (ix2 p k)) * W (((cfg0.win 1).blk t).view.emb (ix2 k q)))
        * D (((cfg0.win 2).blk t).view.emb (ix2 p (0 : Fin 1)))
      = (∑ k : Fin 128, X (ix2 ((((cfg0.win 3).blk t).view.emb (ix2 p q)) 0) k)
            * W (ix2 k ((((cfg0.win 3).blk t).view.emb (ix2 p q)) 1)))
        * D (ix2 ((((cfg0.win 3).blk t).view.emb (ix2 p q)) 0) (0 : Fin 1))
  rw [emb0_scale t p q]
  congr 1
  refine Finset.sum_congr rfl fun k _ => ?_
  exact congrArg₂ (· * ·) (congrArg X (emb0_feat t p q k)) (congrArg W (emb0_weight t p q k))

/-- WHAT POINT t WRITES BACK is block t of the transform of the arrays as the region finds them. -/
theorem flushed0_eq (c : Dev nD) (t : Fin cfg0.N) :
    (dat0 (F := Ideal) V c).flushed 3 t = ((cfg0.win 3).blk t).view.read (Elt Ideal)
      (Cert.Gcn.scaledDense (V c main_arg0) (V c main_arg2) (V c main_v14)) := by
  show (cfg0.win 3).cut (grid0.coords t) ((dat0 V c).after 3 t) = _
  rw [after0_3]
  unfold out0_3
  rw [View.canon_unit_zero zero_offsets0]
  simp only [View.ld_unit_zero (S := S2000x128) zero_offsets0, View.ld_unit_zero (S := S128x128) zero_offsets0,
    View.ld_unit_zero (S := S2000x1) zero_offsets0]
  funext j
  obtain ⟨p, q, rfl⟩ : ∃ (p : Fin 2000) (q : Fin 128), j = ix2 p q := ⟨j 0, j 1, eq_ix2 j⟩
  refine (pay0_apply (iblk0 V c 0 t) (iblk0 V c 1 t) (iblk0 V c 2 t) p q).trans ?_
  exact scaledDense_block0 (V c main_arg0) (V c main_arg2) (V c main_v14) t p q

/-- An index of the output array is in point t's block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v18).slice (win0_3.rect t)).set ↔ _
  rw [View.set_slice_whole, Rect.mem_set_unit]
  exact Iff.rfl

/-- Every one of the 25 row blocks is some point's. -/
theorem idx_onto0 : ∀ b : Fin 25, ∃ t : Fin cfg0.N, win0_3.index t = ![b.val, 0] :=
  (by decide +kernel : ∀ b : Fin 25, ∃ t : Fin grid0.N, win0_3.index t = ![b.val, 0])

/-- Every index of the output array is in some written-back block: row r is in row block r / 2000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE OUTPUT ARRAY after the region: the dense transform of the node rows, scaled, of the arrays as entered. -/
theorem final0 (c : Dev nD) :
    (dat0 (F := Ideal) V c).arrAt 3 cfg0.N = Cert.Gcn.scaledDense (V c main_arg0) (V c main_arg2) (V c main_v14) :=
  (dat0 V c).arrAt_eq_of_cover 3 _ (fun t _ => flushed0_eq V c t) cover0

end Cert.KernelIdeal.RegionValue

end
-- ==== Proof.Region1.lean ====
/-
  The value of the second region of the kernel program: after its 25 grid points the output array [50000, 64] holds, index by
  index, one finished layer followed by the next dense transform and the node's scale,

      out[r, c] = (Σₖ max (g[r, k] · d[r] + b[k]) 0 · w[k, c]) · d[r]        (Cert.Gcn.reluDense),

  where g [50000, 128], d [50000, 1], b [1, 128] and w [128, 64] are the region's input arrays as it finds them.

  Point t of the grid works on rows 2000·t … 2000·t + 1999: it reads the blocks of g and d made of those rows and the whole
  of b and of w, and writes the same rows of the output. First the body's arithmetic is read at one entry (p, q) of a block:
  the column block d is broadcast along its unit axis (it is loaded twice, both loads the same block), the row b along its
  unit axis, the rectifier is the maximum with the constant zero, the changes of float format are the identity on extended
  reals, and the product into the zero accumulator is the sum over the one contracted axis, re-indexed by its positions
  0 … 127. So the entry is the same formula on a 2000-row matrix. Then row p of a block at point t is row 2000·t + p of the
  array, so what point t writes back is the rows 2000·t … of reluDense of the whole arrays; and since every row r lies in
  the block of point r / 2000, the blocks written back fill the output array.
-/
import proofs.«162422_j9251359556274_2_alg».proof.Proof.Gen.KernelIdeal.Frame
import proofs.«162422_j9251359556274_2_alg».proof.Proof.Spec
import proofs.«162422_j9251359556274_2_alg».proof.Proof.LibKeepdims
import proofs.«162422_j9251359556274_2_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-! ## The block product's index maps -/

/-- The block product's dimension numbers: [2000, 128] × [128, 64] → [2000, 64], contracting the left operand's columns
    with the right operand's rows. -/
abbrev blockDot1 : DotDims S2000x128 S128x64 S2000x64 := dot_S2000x128_S128x64_S2000x64_1_0_0_1_n_n

/-- The left factor of entry i at a contraction position sits in row i₀ … -/
theorem blockDot1_lhs_row (i : S2000x64.Idx) (k : blockDot1.contr.Idx) : (blockDot1.lhsIdx i k 0).val = (i 0).val := by
  unfold DotDims.lhsIdx
  rw [dif_neg (show ¬(0 : Fin S2000x128.rank) ∈ blockDot1.lhsBatch by decide),
    dif_pos (show (0 : Fin S2000x128.rank) ∈ blockDot1.lhsNonContracting by decide)]
  rfl

/-- … and in the column the contraction position names. -/
theorem blockDot1_lhs_contr (i : S2000x64.Idx) (k : blockDot1.contr.Idx) :
    (blockDot1.lhsIdx i k 1).val = (k ⟨0, by decide⟩).val :=
  blockDot1.lhsIdx_val_of_single rfl i k

/-- The right factor sits in the row the contraction position names … -/
theorem blockDot1_rhs_contr (i : S2000x64.Idx) (k : blockDot1.contr.Idx) :
    (blockDot1.rhsIdx i k 0).val = (k ⟨0, by decide⟩).val :=
  blockDot1.rhsIdx_val_of_single rfl i k

/-- … and in column i₁. -/
theorem blockDot1_rhs_col (i : S2000x64.Idx) (k : blockDot1.contr.Idx) : (blockDot1.rhsIdx i k 1).val = (i 1).val := by
  unfold DotDims.rhsIdx
  rw [dif_neg (show ¬(1 : Fin S128x64.rank) ∈ blockDot1.rhsBatch by decide),
    dif_pos (show (1 : Fin S128x64.rank) ∈ blockDot1.rhsNonContracting by decide)]
  rfl

/-! ## The body's arithmetic at one entry of a block -/

/-- The body's arithmetic at entry (p, q) of a block, the column block d loaded twice:
    (Σₖ max (g[p, k] · d[p] + b[k]) 0 · w[k, q]) · d[p]. -/
theorem reluDense_payload (x0 : Vec Ideal S2000x128 .f32) (x1 : Vec Ideal S2000x1 .f32) (x2 : Vec Ideal S1x128 .f32)
    (x3 : Vec Ideal S128x64 .f32) (p : Fin 2000) (q : Fin 64) :
    Gen.k1_pay1 x0 x1 x2 x3 x1 (ix2 p q)
      = Cert.Gcn.reluDense (n := 2000) (a := 128) (b := 64) x0 x1 x2 x3 (ix2 p q) := by
  unfold Gen.k1_pay1 Cert.Gcn.reluDense
  simp only [shapeCast_self]
  -- the outer scale by d[p]
  rw [truncf_apply, mulf_apply, Cert.LibKeepdims.broadcastTo_col_apply]
  show _ * x1 (ix2 p 0)
    = (∑ k : Fin 128, max (x0 (ix2 p k) * x1 (ix2 p 0) + x2 (ix2 0 k)) 0 * x3 (ix2 k q)) * x1 (ix2 p 0)
  refine congrArg (· * x1 (ix2 p 0)) ?_
  -- the product into the zero accumulator: the sum over the contracted axis, by its positions 0 … 127
  refine (Ideal.matmul_constant_zero_apply blockDot1 none _ _ (ix2 p q)).trans ?_
  rw [Cert.LibDot.sum_contr blockDot1 128 rfl rfl]
  refine Finset.sum_congr rfl fun k _ => ?_
  have hk := contrEquiv1_symm_val blockDot1 128 rfl rfl k
  have el : blockDot1.lhsIdx (ix2 p q) ((contrEquiv1 blockDot1 128 rfl rfl).symm k) = ix2 p k :=
    funext fun a => Fin.ext (by
      match a with
      | ⟨0, _⟩ => exact blockDot1_lhs_row _ _
      | ⟨1, _⟩ => exact (blockDot1_lhs_contr _ _).trans hk)
  have er : blockDot1.rhsIdx (ix2 p q) ((contrEquiv1 blockDot1 128 rfl rfl).symm k) = ix2 k q :=
    funext fun a => Fin.ext (by
      match a with
      | ⟨0, _⟩ => exact (blockDot1_rhs_contr _ _).trans hk
      | ⟨1, _⟩ => exact blockDot1_rhs_col _ _)
  -- the two factors at position k: the rectified, biased, scaled entry of g, and the entry of w
  rw [el, er, truncf_apply, truncf_apply, maximumf_apply, addf_apply, mulf_apply,
    Cert.LibKeepdims.broadcastTo_col_apply, broadcastTo_1b_ab_apply, broadcast_apply]
  show max _ (Ideal.ofBits .f32 0x00000000#32) * _ = _
  rw [Ideal.ofBits_zero_f32]

/-! ## From blocks to the array -/

/-- The offsets of an access to a whole block are zero on both axes. -/
theorem zero_offsets1 : (![0, 0] : Fin 2 → Nat) = fun _ => 0 := funext fun a => by fin_cases a <;> rfl

/-- The block indices at grid point t, decided over the 25 points: the blocks of g, of d and of the output are block t
    along the rows and block 0 along the columns; b and w are always their one block. -/
theorem block_indices1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- reluDense treats every row by itself: entry (p, q) of reluDense of 2000-row blocks is entry i of reluDense of the whole
    arrays as soon as the entries the formula reads agree — row p of the block of g with row i₀ of g, d[p] with d[i₀], the
    bias rows, and column q of the block of w with column i₁ of w. -/
theorem reluDense_block (g : Cert.Gcn.Mat 2000 128) (d : Cert.Gcn.Mat 2000 1) (b : Cert.Gcn.Mat 1 128)
    (w : Cert.Gcn.Mat 128 64) (G : Cert.Gcn.Mat 50000 128) (D : Cert.Gcn.Mat 50000 1) (B : Cert.Gcn.Mat 1 128)
    (W : Cert.Gcn.Mat 128 64) (p : Fin 2000) (q : Fin 64) (i : S50000x64.Idx)
    (hg : ∀ k : Fin 128, g (ix2 p k) = G (ix2 (i 0) k)) (hd : d (ix2 p 0) = D (ix2 (i 0) 0))
    (hb : ∀ k : Fin 128, b (ix2 0 k) = B (ix2 0 k)) (hw : ∀ k : Fin 128, w (ix2 k q) = W (ix2 k (i 1))) :
    Cert.Gcn.reluDense g d b w (ix2 p q) = Cert.Gcn.reluDense G D B W i := by
  unfold Cert.Gcn.reluDense
  show (∑ k : Fin 128, max (g (ix2 p k) * d (ix2 p 0) + b (ix2 0 k)) 0 * w (ix2 k q)) * d (ix2 p 0) = _
  rw [hd]
  refine congrArg (· * D (ix2 (i 0) 0)) (Finset.sum_congr rfl fun k _ => ?_)
  rw [hg k, hb k, hw k]

/-- What grid point t writes back is block t of reluDense of the input arrays as the region finds them: entry (p, q) of a
    block at point t sits in its array at row (block index) · 2000 + p and column q. -/
theorem flushed1_eq (V : (c : Dev nD) → (b : Ref sig .tc) → Buf (Elt Ideal) ((c : Thread nD τ).loc b)) (c : Dev nD)
    (t : Fin cfg1.N) :
    (Gen.dat1 (F := Ideal) V c).flushed 4 t = ((cfg1.win 4).blk t).view.read (Elt Ideal)
      (Cert.Gcn.reluDense (n := 50000) (a := 128) (b := 64) (V c main_v29) (V c main_v14) (V c main_v15)
        (V c main_arg4)) := by
  show (cfg1.win 4).cut (grid1.coords t) ((Gen.dat1 V c).after 4 t) = _
  rw [Gen.after1_4]
  unfold Gen.out1_4
  rw [View.canon_unit_zero zero_offsets1]
  simp only [View.ld_unit_zero (S := S2000x128) zero_offsets1, View.ld_unit_zero (S := S2000x1) zero_offsets1,
    View.ld_unit_zero (S := S1x128) zero_offsets1, View.ld_unit_zero (S := S128x64) zero_offsets1]
  obtain ⟨e0, e1, e2, e3, e4, e5, e6, e7, e8, e9⟩ := block_indices1 t
  funext j
  obtain ⟨p, q, rfl⟩ : ∃ (p : Fin 2000) (q : Fin 64), j = ix2 p q := ⟨j 0, j 1, eq_ix2 j⟩
  show Gen.k1_pay1 (Gen.iblk1 V c 0 t) (Gen.iblk1 V c 1 t) (Gen.iblk1 V c 2 t) (Gen.iblk1 V c 3 t) (Gen.iblk1 V c 1 t)
      (ix2 p q)
    = Cert.Gcn.reluDense (n := 50000) (a := 128) (b := 64) (V c main_v29) (V c main_v14) (V c main_v15) (V c main_arg4)
        (((cfg1.win 4).blk t).view.emb (ix2 p q))
  rw [reluDense_payload]
  refine reluDense_block _ _ _ _ _ _ _ _ p q _ (fun k => ?_) ?_ (fun k => ?_) (fun k => ?_)
  · -- g: the output entry's row, column k
    show V c main_v29 (((cfg1.win 0).blk t).view.emb (ix2 p k))
      = V c main_v29 (ix2 (((cfg1.win 4).blk t).view.emb (ix2 p q) 0) k)
    refine congrArg _ (funext fun a => Fin.ext ?_)
    match a with
    | ⟨0, _⟩ => show win1_0.index t (0 : Fin 2) * 2000 + 1 * p.val = win1_4.index t (0 : Fin 2) * 2000 + 1 * p.val; omega
    | ⟨1, _⟩ => show win1_0.index t (1 : Fin 2) * 128 + 1 * k.val = k.val; omega
  · -- d: the same row, its one column
    show V c main_v14 (((cfg1.win 1).blk t).view.emb (ix2 p 0))
      = V c main_v14 (ix2 (((cfg1.win 4).blk t).view.emb (ix2 p q) 0) 0)
    refine congrArg _ (funext fun a => Fin.ext ?_)
    match a with
    | ⟨0, _⟩ => show win1_1.index t (0 : Fin 2) * 2000 + 1 * p.val = win1_4.index t (0 : Fin 2) * 2000 + 1 * p.val; omega
    | ⟨1, _⟩ => show win1_1.index t (1 : Fin 2) * 1 + 1 * 0 = 0; omega
  · -- b: its one row, column k
    show V c main_v15 (((cfg1.win 2).blk t).view.emb (ix2 0 k)) = V c main_v15 (ix2 0 k)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · -- w: row k, the output entry's column
    show V c main_arg4 (((cfg1.win 3).blk t).view.emb (ix2 k q))
      = V c main_arg4 (ix2 k (((cfg1.win 4).blk t).view.emb (ix2 p q) 1))
    refine congrArg _ (funext fun a => Fin.ext ?_)
    match a with
    | ⟨0, _⟩ => show win1_3.index t (0 : Fin 2) * 128 + 1 * k.val = k.val; omega
    | ⟨1, _⟩ => show win1_3.index t (1 : Fin 2) * 64 + 1 * q.val = win1_4.index t (1 : Fin 2) * 64 + 1 * q.val; omega

/-- An index of the output array is in point t's block iff each coordinate is in the block's range on its axis. -/
theorem mem_block1 (t : Fin cfg1.N) (i : S50000x64.Idx) :
    i ∈ ((cfg1.win 4).blk t).view.set ↔ ∀ a : Fin 2, win1_4.index t a * S2000x64.size a ≤ (i a).val
      ∧ (i a).val < win1_4.index t a * S2000x64.size a + S2000x64.size a := by
  show i ∈ ((View.whole main_v30).slice (win1_4.rect t)).set ↔ _
  rw [View.set_slice_whole, Rect.mem_set_unit]
  exact Iff.rfl

/-- Every index (r, c) of the output array is in the block written back at point r / 2000. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 25 := Gen.N_1
  obtain ⟨t, ht⟩ : ∃ t : Fin cfg1.N, t.val = (i 0).val / 2000 := ⟨⟨(i 0).val / 2000, by rw [hN]; omega⟩, rfl⟩
  obtain ⟨-, -, -, -, -, -, -, -, e8, e9⟩ := block_indices1 t
  refine ⟨t, Gen.flush1_4 t, ?_⟩
  rw [mem_block1]
  intro a
  match a with
  | ⟨0, _⟩ =>
    show win1_4.index t (0 : Fin 2) * 2000 ≤ (i 0).val ∧ (i 0).val < win1_4.index t (0 : Fin 2) * 2000 + 2000; omega
  | ⟨1, _⟩ =>
    show win1_4.index t (1 : Fin 2) * 64 ≤ (i 1).val ∧ (i 1).val < win1_4.index t (1 : Fin 2) * 64 + 64; omega

/-- THE OUTPUT ARRAY after the region: reluDense of the four input arrays as the region finds them. -/
theorem final1 (V : (c : Dev nD) → (b : Ref sig .tc) → Buf (Elt Ideal) ((c : Thread nD τ).loc b)) (c : Dev nD) :
    (Gen.dat1 (F := Ideal) V c).arrAt 4 cfg1.N
      = Cert.Gcn.reluDense (n := 50000) (a := 128) (b := 64) (V c main_v29) (V c main_v14) (V c main_v15)
          (V c main_arg4) :=
  (Gen.dat1 V c).arrAt_eq_of_cover 4 _ (fun t _ => flushed1_eq V c t) cover1

end Cert.KernelIdeal.RegionValue

end
-- ==== Proof.Region2.lean ====
/-
  The value of the third region of the kernel program: after its 25 grid points the output array [50000, 64] holds, index
  by index, the input array scaled row by row and shifted by the bias row,

      out[r, c] = g[r, c] · d[r] + b[c]        (Cert.Gcn.scaleBias),

  where g [50000, 64], d [50000, 1] and b [1, 64] are the region's input arrays as it finds them.

  Point t of the grid works on rows 2000·t … 2000·t + 1999: it reads the blocks of g and d made of those rows and the whole
  of b, and writes the same rows of the output. First the body's arithmetic is read at one entry (p, q) of a block: the
  column block d is broadcast along its unit axis, the row b along its unit axis, so the entry is g[p, q] · d[p] + b[q] —
  the same formula on a 2000-row matrix. Then row p of a block at point t is row 2000·t + p of the array, so what point t
  writes back is the rows 2000·t … of scaleBias of the whole arrays; and since every row r lies in the block of point
  r / 2000, the blocks written back fill the output array.
-/
import proofs.«162422_j9251359556274_2_alg».proof.Proof.Gen.KernelIdeal.Frame
import proofs.«162422_j9251359556274_2_alg».proof.Proof.Spec
import proofs.«162422_j9251359556274_2_alg».proof.Proof.LibKeepdims
import Idealize.ShloMosaic.Lib.Pipeline.Value
import Idealize.ShloMosaic.Lib.ValueIdx
import Idealize.ShloMosaic.Lib.ValueLayout

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/-- The offsets of an access to a whole block are zero on both axes. -/
theorem zero_offsets2 : (![0, 0] : Fin 2 → Nat) = fun _ => 0 := funext fun a => by fin_cases a <;> rfl

/-- The body's arithmetic at entry (p, q) of a block: g[p, q] · d[p] + b[q]. The reshapes keep the shape, the column d is
    broadcast along its unit axis and the row b along its unit axis. -/
theorem scaleBias_payload (x0 : Vec Ideal S2000x64 .f32) (x1 : Vec Ideal S2000x1 .f32) (x2 : Vec Ideal S1x64 .f32)
    (p : Fin 2000) (q : Fin 64) :
    Gen.k2_pay1 x0 x1 x2 (ix2 p q) = Cert.Gcn.scaleBias (n := 2000) (a := 64) x0 x1 x2 (ix2 p q) := by
  unfold Gen.k2_pay1 Cert.Gcn.scaleBias
  simp only [shapeCast_self]
  rw [addf_apply, mulf_apply, Cert.LibKeepdims.broadcastTo_col_apply, broadcastTo_1b_ab_apply]

/-- The block indices at grid point t, decided over the 25 points: the blocks of g, of d and of the output are block t
    along the rows and block 0 along the columns; b is always its one block. -/
theorem block_indices2 : ∀ t : Fin cfg2.N, win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- scaleBias treats every row by itself: entry (p, q) of scaleBias of 2000-row blocks is entry i of scaleBias of the whole
    arrays as soon as the three entries the formula reads agree. -/
theorem scaleBias_block (g : Cert.Gcn.Mat 2000 64) (d : Cert.Gcn.Mat 2000 1) (b : Cert.Gcn.Mat 1 64)
    (G : Cert.Gcn.Mat 50000 64) (D : Cert.Gcn.Mat 50000 1) (B : Cert.Gcn.Mat 1 64)
    (p : Fin 2000) (q : Fin 64) (i : S50000x64.Idx)
    (hg : g (ix2 p q) = G i) (hd : d (ix2 p 0) = D (ix2 (i 0) 0)) (hb : b (ix2 0 q) = B (ix2 0 (i 1))) :
    Cert.Gcn.scaleBias g d b (ix2 p q) = Cert.Gcn.scaleBias G D B i := by
  unfold Cert.Gcn.scaleBias
  show g (ix2 p q) * d (ix2 p 0) + b (ix2 0 q) = _
  rw [hg, hd, hb]

/-- What grid point t writes back is block t of scaleBias of the input arrays as the region finds them: entry (p, q) of a
    block at point t sits in its array at row (block index) · 2000 + p and column q. -/
theorem flushed2_eq (V : (c : Dev nD) → (b : Ref sig .tc) → Buf (Elt Ideal) ((c : Thread nD τ).loc b)) (c : Dev nD)
    (t : Fin cfg2.N) :
    (Gen.dat2 (F := Ideal) V c).flushed 3 t = ((cfg2.win 3).blk t).view.read (Elt Ideal)
      (Cert.Gcn.scaleBias (n := 50000) (a := 64) (V c main_v41) (V c main_v14) (V c main_v16)) := by
  show (cfg2.win 3).cut (grid2.coords t) ((Gen.dat2 V c).after 3 t) = _
  rw [Gen.after2_3]
  unfold Gen.out2_3
  rw [View.canon_unit_zero zero_offsets2]
  simp only [View.ld_unit_zero (S := S2000x64) zero_offsets2, View.ld_unit_zero (S := S2000x1) zero_offsets2,
    View.ld_unit_zero (S := S1x64) zero_offsets2]
  obtain ⟨e0, e1, e2, e3, e4, e5, e6, e7⟩ := block_indices2 t
  funext j
  obtain ⟨p, q, rfl⟩ : ∃ (p : Fin 2000) (q : Fin 64), j = ix2 p q := ⟨j 0, j 1, eq_ix2 j⟩
  show Gen.k2_pay1 (Gen.iblk2 V c 0 t) (Gen.iblk2 V c 1 t) (Gen.iblk2 V c 2 t) (ix2 p q)
    = Cert.Gcn.scaleBias (n := 50000) (a := 64) (V c main_v41) (V c main_v14) (V c main_v16)
        (((cfg2.win 3).blk t).view.emb (ix2 p q))
  rw [scaleBias_payload]
  refine scaleBias_block _ _ _ _ _ _ p q _ ?_ ?_ ?_
  · -- g: the same row and column as the output's entry
    show V c main_v41 (((cfg2.win 0).blk t).view.emb (ix2 p q)) = V c main_v41 (((cfg2.win 3).blk t).view.emb (ix2 p q))
    refine congrArg _ (funext fun a => Fin.ext ?_)
    match a with
    | ⟨0, _⟩ => show win2_0.index t (0 : Fin 2) * 2000 + 1 * p.val = win2_3.index t (0 : Fin 2) * 2000 + 1 * p.val; omega
    | ⟨1, _⟩ => show win2_0.index t (1 : Fin 2) * 64 + 1 * q.val = win2_3.index t (1 : Fin 2) * 64 + 1 * q.val; omega
  · -- d: the same row, its one column
    show V c main_v14 (((cfg2.win 1).blk t).view.emb (ix2 p 0))
      = V c main_v14 (ix2 (((cfg2.win 3).blk t).view.emb (ix2 p q) 0) 0)
    refine congrArg _ (funext fun a => Fin.ext ?_)
    match a with
    | ⟨0, _⟩ => show win2_1.index t (0 : Fin 2) * 2000 + 1 * p.val = win2_3.index t (0 : Fin 2) * 2000 + 1 * p.val; omega
    | ⟨1, _⟩ => show win2_1.index t (1 : Fin 2) * 1 + 1 * 0 = 0; omega
  · -- b: its one row, the same column
    show V c main_v16 (((cfg2.win 2).blk t).view.emb (ix2 0 q))
      = V c main_v16 (ix2 0 (((cfg2.win 3).blk t).view.emb (ix2 p q) 1))
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * q.val = win2_3.index t (1 : Fin 2) * 64 + 1 * q.val; omega

/-- An index of the output array is in point t's block iff each coordinate is in the block's range on its axis. -/
theorem mem_block2 (t : Fin cfg2.N) (i : S50000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v42).slice (win2_3.rect t)).set ↔ _
  rw [View.set_slice_whole, Rect.mem_set_unit]
  exact Iff.rfl

/-- Every index (r, c) of the output array is in the block written back at point r / 2000. -/
theorem cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := Gen.N_2
  obtain ⟨t, ht⟩ : ∃ t : Fin cfg2.N, t.val = (i 0).val / 2000 := ⟨⟨(i 0).val / 2000, by rw [hN]; omega⟩, rfl⟩
  obtain ⟨-, -, -, -, -, -, e6, e7⟩ := block_indices2 t
  refine ⟨t, Gen.flush2_3 t, ?_⟩
  rw [mem_block2]
  intro a
  match a with
  | ⟨0, _⟩ =>
    show win2_3.index t (0 : Fin 2) * 2000 ≤ (i 0).val ∧ (i 0).val < win2_3.index t (0 : Fin 2) * 2000 + 2000; omega
  | ⟨1, _⟩ =>
    show win2_3.index t (1 : Fin 2) * 64 ≤ (i 1).val ∧ (i 1).val < win2_3.index t (1 : Fin 2) * 64 + 64; omega

/-- THE OUTPUT ARRAY after the region: scaleBias of the three input arrays as the region finds them. -/
theorem final2 (V : (c : Dev nD) → (b : Ref sig .tc) → Buf (Elt Ideal) ((c : Thread nD τ).loc b)) (c : Dev nD) :
    (Gen.dat2 (F := Ideal) V c).arrAt 3 cfg2.N
      = Cert.Gcn.scaleBias (n := 50000) (a := 64) (V c main_v41) (V c main_v14) (V c main_v16) :=
  (Gen.dat2 V c).arrAt_eq_of_cover 3 _ (fun t _ => flushed2_eq V c t) cover2

end Cert.KernelIdeal.RegionValue

end
-- ==== Proof.Region3.lean ====
/-
  The value of the last pallas_call region: a dense transform of every node row, then a bias.

  The region walks the 50000 node rows in 25 blocks of 2000. At a block it multiplies the block's rows [2000, 64] by
  the whole weight matrix [64, 64] into a zero accumulator and adds the bias row [1, 64] to every row of the product;
  the changes of float format around the product are the identity on the extended reals. Entry (p, q) of what a block
  leaves is therefore

      (Σₖ h[p, k] · w[k, q]) + b[q]

  of the block's own rows: `Cert.Gcn.denseBias` of the blocks. Since that formula treats each row by itself and the
  input and output windows sit on the same row block (the weight and bias windows on their whole arrays), block t of
  the output is block t of `Cert.Gcn.denseBias` of the whole arrays; the 25 blocks tile the output array (row r lies
  in block r / 2000), so after the region the array IS that function of the arrays as the region found them.
-/
import proofs.«162422_j9251359556274_2_alg».proof.Proof.Gen.KernelIdeal.Frame
import proofs.«162422_j9251359556274_2_alg».proof.Proof.Spec
import proofs.«162422_j9251359556274_2_alg».proof.Proof.LibDot
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The block's arithmetic at an entry -/

/-- On the rows' axis the left operand's index is the output's row, whatever the contracted position. -/
theorem lhs_row_dot3 (j : S2000x64.Idx) (kk : dot_S2000x64_S64x64_S2000x64_1_0_0_1_n_n.contr.Idx) :
    (dot_S2000x64_S64x64_S2000x64_1_0_0_1_n_n.lhsIdx j kk 0).val = (j 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

/-- On the columns' axis the right operand's index is the output's column. -/
theorem rhs_col_dot3 (j : S2000x64.Idx) (kk : dot_S2000x64_S64x64_S2000x64_1_0_0_1_n_n.contr.Idx) :
    (dot_S2000x64_S64x64_S2000x64_1_0_0_1_n_n.rhsIdx j kk 1).val = (j 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The left operand's index of the block product at entry (p, q) and contracted position k is (p, k). -/
theorem lhsIdx_dot3 (p : Fin 2000) (q : Fin 64) (k : Fin 64) :
    dot_S2000x64_S64x64_S2000x64_1_0_0_1_n_n.lhsIdx (ix2 p q) ((contrEquiv1 dot_S2000x64_S64x64_S2000x64_1_0_0_1_n_n 64 rfl rfl).symm k) = ix2 p k :=
  funext fun a => Fin.ext (by
    match a with
    | ⟨0, _⟩ => exact lhs_row_dot3 _ _
    | ⟨1, _⟩ => exact (dot_S2000x64_S64x64_S2000x64_1_0_0_1_n_n.lhsIdx_val_of_single rfl _ _).trans (contrEquiv1_symm_val dot_S2000x64_S64x64_S2000x64_1_0_0_1_n_n 64 rfl rfl k))

/-- The right operand's index there is (k, q). -/
theorem rhsIdx_dot3 (p : Fin 2000) (q : Fin 64) (k : Fin 64) :
    dot_S2000x64_S64x64_S2000x64_1_0_0_1_n_n.rhsIdx (ix2 p q) ((contrEquiv1 dot_S2000x64_S64x64_S2000x64_1_0_0_1_n_n 64 rfl rfl).symm k) = ix2 k q :=
  funext fun a => Fin.ext (by
    match a with
    | ⟨0, _⟩ => exact (dot_S2000x64_S64x64_S2000x64_1_0_0_1_n_n.rhsIdx_val_of_single rfl _ _).trans (contrEquiv1_symm_val dot_S2000x64_S64x64_S2000x64_1_0_0_1_n_n 64 rfl rfl k)
    | ⟨1, _⟩ => exact rhs_col_dot3 _ _)

/-- WHAT THE BODY STORES, at entry (p, q): (Σₖ x0[p, k] · x1[k, q]) + x2[q] of the three loaded blocks. The product
    accumulates into zero, the bias row is broadcast over the rows, and every change of float format is the identity
    on the extended reals. -/
theorem pay3_apply (x0 : Vec Ideal S2000x64 .f32) (x1 : Vec Ideal S64x64 .f32) (x2 : Vec Ideal S1x64 .f32)
    (p : Fin 2000) (q : Fin 64) :
    k3_pay1 (F := Ideal) x0 x1 x2 (ix2 p q) = Cert.Gcn.denseBias x0 x1 x2 (ix2 p q) := by
  unfold k3_pay1
  rw [addf_apply, shapeCast_self, shapeCast_self, broadcastTo_1b_ab_apply]
  simp only [matmul]
  rw [Ideal.matmul_constant_zero_apply, Cert.LibDot.sum_contr dot_S2000x64_S64x64_S2000x64_1_0_0_1_n_n 64 rfl rfl]
  show _ = (∑ k : Fin 64, x0 (ix2 p k) * x1 (ix2 k q)) + x2 (ix2 0 q)
  congr 1
  refine Finset.sum_congr rfl fun k _ => ?_
  rw [truncf_apply, truncf_apply, lhsIdx_dot3, rhsIdx_dot3]

/-! ## From the blocks to the arrays -/

variable (V : (c : Dev nD) → (b : Ref sig .tc) → Buf (Elt Ideal) ((c : Thread nD τ).loc b))

/-- The body's loads and its store start at offset (0, 0) of their blocks. -/
theorem zero_offsets3 : (![0, 0] : Fin 2 → Nat) = fun _ => 0 := funext fun a => by fin_cases a <;> rfl

/-- The printed index maps, decided over the 25 grid points: the input's node-row window sits on the output's row
    block and on column block 0; the weight and bias windows stay on block (0, 0). -/
theorem idx_facts3 : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 :=
  (by decide +kernel : ∀ t : Fin grid3.N, _)

/-- Row p, column k of the input block at point t is, in the input array, the row the output's block puts p on,
    column k. -/
theorem emb3_rows (t : Fin cfg3.N) (p : Fin 2000) (q k : Fin 64) :
    ((cfg3.win 0).blk t).view.emb (ix2 p k) = ix2 ((((cfg3.win 3).blk t).view.emb (ix2 p q)) 0) k := by
  obtain ⟨e0, e1, e2, e3, e4, e5, e6⟩ := idx_facts3 t
  funext a; apply Fin.ext
  match a with
  | ⟨0, _⟩ => show win3_0.index t (0 : Fin 2) * 2000 + 1 * p.val = win3_3.index t (0 : Fin 2) * 2000 + 1 * p.val; omega
  | ⟨1, _⟩ => show win3_0.index t (1 : Fin 2) * 64 + 1 * k.val = k.val; omega

/-- The weight block is the weight matrix: its entry (k, q) is the matrix's entry (k, the output's column). -/
theorem emb3_weight (t : Fin cfg3.N) (p : Fin 2000) (q k : Fin 64) :
    ((cfg3.win 1).blk t).view.emb (ix2 k q) = ix2 k ((((cfg3.win 3).blk t).view.emb (ix2 p q)) 1) := by
  obtain ⟨e0, e1, e2, e3, e4, e5, e6⟩ := idx_facts3 t
  funext a; apply Fin.ext
  match a with
  | ⟨0, _⟩ => show win3_1.index t (0 : Fin 2) * 64 + 1 * k.val = k.val; omega
  | ⟨1, _⟩ => show win3_1.index t (1 : Fin 2) * 64 + 1 * q.val = win3_3.index t (1 : Fin 2) * 64 + 1 * q.val; omega

/-- The bias block is the bias row: its entry q is the row's entry at the output's column. -/
theorem emb3_bias (t : Fin cfg3.N) (p : Fin 2000) (q : Fin 64) :
    ((cfg3.win 2).blk t).view.emb (ix2 (0 : Fin 1) q) = ix2 (0 : Fin 1) ((((cfg3.win 3).blk t).view.emb (ix2 p q)) 1) := by
  obtain ⟨e0, e1, e2, e3, e4, e5, e6⟩ := idx_facts3 t
  funext a; apply Fin.ext
  match a with
  | ⟨0, _⟩ => show win3_2.index t (0 : Fin 2) * 1 + 1 * 0 = 0; omega
  | ⟨1, _⟩ => show win3_2.index t (1 : Fin 2) * 64 + 1 * q.val = win3_3.index t (1 : Fin 2) * 64 + 1 * q.val; omega

/-- The transform of the blocks at point t, at entry (p, q) of the block, is the transform of the whole arrays at the
    array index the output's block puts (p, q) on: rows are treated one by one, and the blocks cut rows. -/
theorem denseBias_block3 (H : Cert.Gcn.Mat 50000 64) (W : Cert.Gcn.Mat 64 64) (B : Cert.Gcn.Mat 1 64)
    (t : Fin cfg3.N) (p : Fin 2000) (q : Fin 64) :
    Cert.Gcn.denseBias (((cfg3.win 0).blk t).view.read (Elt Ideal) H) (((cfg3.win 1).blk t).view.read (Elt Ideal) W)
        (((cfg3.win 2).blk t).view.read (Elt Ideal) B) (ix2 p q)
      = Cert.Gcn.denseBias H W B (((cfg3.win 3).blk t).view.emb (ix2 p q)) := by
  show (∑ k : Fin 64, H (((cfg3.win 0).blk t).view.emb (ix2 p k)) * W (((cfg3.win 1).blk t).view.emb (ix2 k q)))
        + B (((cfg3.win 2).blk t).view.emb (ix2 (0 : Fin 1) q))
      = (∑ k : Fin 64, H (ix2 ((((cfg3.win 3).blk t).view.emb (ix2 p q)) 0) k)
            * W (ix2 k ((((cfg3.win 3).blk t).view.emb (ix2 p q)) 1)))
        + B (ix2 (0 : Fin 1) ((((cfg3.win 3).blk t).view.emb (ix2 p q)) 1))
  rw [emb3_bias t p q]
  congr 1
  refine Finset.sum_congr rfl fun k _ => ?_
  exact congrArg₂ (· * ·) (congrArg H (emb3_rows t p q k)) (congrArg W (emb3_weight t p q k))

/-- WHAT POINT t WRITES BACK is block t of the transform of the arrays as the region finds them. -/
theorem flushed3_eq (c : Dev nD) (t : Fin cfg3.N) :
    (dat3 (F := Ideal) V c).flushed 3 t = ((cfg3.win 3).blk t).view.read (Elt Ideal)
      (Cert.Gcn.denseBias (V c main_v42) (V c main_arg6) (V c main_v17)) := by
  show (cfg3.win 3).cut (grid3.coords t) ((dat3 V c).after 3 t) = _
  rw [after3_3]
  unfold out3_3
  rw [View.canon_unit_zero zero_offsets3]
  simp only [View.ld_unit_zero (S := S2000x64) zero_offsets3, View.ld_unit_zero (S := S64x64) zero_offsets3,
    View.ld_unit_zero (S := S1x64) zero_offsets3]
  funext j
  obtain ⟨p, q, rfl⟩ : ∃ (p : Fin 2000) (q : Fin 64), j = ix2 p q := ⟨j 0, j 1, eq_ix2 j⟩
  refine (pay3_apply (iblk3 V c 0 t) (iblk3 V c 1 t) (iblk3 V c 2 t) p q).trans ?_
  exact denseBias_block3 (V c main_v42) (V c main_arg6) (V c main_v17) t p q

/-- An index of the output array is in point t's block iff each coordinate is in the block's range on its axis. -/
theorem mem_blk3 (t : Fin cfg3.N) (i : S50000x64.Idx) :
    i ∈ ((cfg3.win 3).blk t).view.set ↔ ∀ a : Fin 2, win3_3.index t a * S2000x64.size a ≤ (i a).val
      ∧ (i a).val < win3_3.index t a * S2000x64.size a + S2000x64.size a := by
  show i ∈ ((View.whole main_v43).slice (win3_3.rect t)).set ↔ _
  rw [View.set_slice_whole, Rect.mem_set_unit]
  exact Iff.rfl

/-- Every one of the 25 row blocks is some point's. -/
theorem idx_onto3 : ∀ b : Fin 25, ∃ t : Fin cfg3.N, win3_3.index t = ![b.val, 0] :=
  (by decide +kernel : ∀ b : Fin 25, ∃ t : Fin grid3.N, win3_3.index t = ![b.val, 0])

/-- Every index of the output array is in some written-back block: row r is in row block r / 2000. -/
theorem cover3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := idx_onto3 ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 64 ≤ (i 1).val ∧ (i 1).val < win3_3.index t (1 : Fin 2) * 64 + 64; omega

/-- THE OUTPUT ARRAY after the region: the dense transform of the node rows, plus the bias, of the arrays as entered. -/
theorem final3 (c : Dev nD) :
    (dat3 (F := Ideal) V c).arrAt 3 cfg3.N = Cert.Gcn.denseBias (V c main_v42) (V c main_arg6) (V c main_v17) :=
  (dat3 V c).arrAt_eq_of_cover 3 _ (fun t _ => flushed3_eq V c t) cover3

end Cert.KernelIdeal.RegionValue

end
-- ==== Proof.LibRows.lean ====
/-
  `stablehlo.gather` of whole rows of a matrix, and of single elements of a flat array, read at an index.

  What `x[idx]` lowers to when `x : [N, C]` is a matrix and `idx : [R, 1]` a column of integer row numbers: a gather with
  offset_dims `[1]`, collapsed_slice_dims `[0]`, start_index_map `[0]`, index_vector_dim 1 and slice_sizes `[1, C]`.
  Result element `(r, c)` is `x` at row `idx[r, 0]` — read as a signed integer and clamped into `[0, N − 1]`, as
  StableHLO's gather clamps every start index — and column `c`. The same with a flat operand `x : [N]` (offset_dims
  `[]`, slice_sizes `[1]`): result element `r` is `x` at the clamped `idx[r, 0]`.
-/
import Idealize.ShloMosaic.Lib.ValueIdx

namespace Cert.LibRows

open Idealize.ShloMosaic Idealize.ShloMosaic.ValueIdx

section Rows
variable {α : Type}

/-- The dimension numbers of a gather of whole rows: operand `[N, C]`, start indices `[R, 1]`, result `[R, C]`; the
    result's axis 1 is the offset axis (it runs along a row), the operand's axis 0 is collapsed and is the one the start
    index names. Their conditions `wf` are decided on a program's literal shapes. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, c)`: the operand at row `idx[r, 0]` (read signed and clamped into `[0, N − 1]`) and
    column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N R C wf) x idx y
      = x (ix2 ⟨min (idx (ix2 (y 0) 0)).toInt.toNat (N - 1), by omega⟩ (y 1)) := by
  unfold Host.gather
  congr 1
  funext a
  refine Fin.ext ?_
  show (rowsDims N R C wf).start y idx a + (rowsDims N R C wf).batchCoord y a + (rowsDims N R C wf).offCoord y a = _
  rw [GatherDims.batchCoord_eq_zero _ _ _ List.not_mem_nil]
  simp only [Nat.add_zero]
  -- the collapsed axis: the clamped start index, no offset
  have h0 : (rowsDims N R C wf).start y idx (0 : Fin 2) + (rowsDims N R C wf).offCoord y (0 : Fin 2)
      = min (idx (ix2 (y 0) 0)).toInt.toNat (N - 1) := by
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx y ⟨List.idxOf (0 : Fin 2) (rowsDims N R C wf).startIndexMap,
        List.idxOf_lt_length_iff.2 (List.mem_singleton.mpr rfl)⟩ = ix2 (y 0) 0 := by
      funext b; refine Fin.ext ?_
      match b with
      | ⟨0, _⟩ => rfl
      | ⟨1, _⟩ => rfl
    rw [hsi]
    rfl
  -- the offset axis: start 0, the result's own column
  have h1 : (rowsDims N R C wf).start y idx (1 : Fin 2) + (rowsDims N R C wf).offCoord y (1 : Fin 2)
      = (y 1).val := by
    have hne : ¬ ((1 : Fin 2) = 0) := by decide
    have hstart : (rowsDims N R C wf).start y idx (1 : Fin 2) = 0 := by
      unfold GatherDims.start
      rw [dif_neg (fun h => hne (List.mem_singleton.mp h))]
    have hkept : (1 : Fin 2) ∈ (rowsDims N R C wf).sKept :=
      (GatherDims.mem_sKept _ _).mpr ⟨fun h => hne (List.mem_singleton.mp h), List.not_mem_nil⟩
    have hoff : (rowsDims N R C wf).offCoord y (1 : Fin 2) = (y 1).val := by
      unfold GatherDims.offCoord
      rw [dif_pos hkept]
      rfl
    rw [hstart, hoff, Nat.zero_add]
  match a with
  | ⟨0, _⟩ => exact h0
  | ⟨1, _⟩ => exact h1

/-- The same read with the result index given by its coordinates `(r, c)`. -/
theorem gather_rows_apply_ix2 {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowsDims N R C wf) x idx (ix2 r c)
      = x (ix2 ⟨min (idx (ix2 r 0)).toInt.toNat (N - 1), by omega⟩ c) :=
  gather_rows_apply hN wf x idx (ix2 r c)

end Rows

section Take1
variable {α : Type}

/-- The dimension numbers of a gather of single elements of a flat array: operand `[N]`, start indices `[R, 1]`, result
    `[R]`; no offset axis, the operand's only axis is collapsed and is the one the start index names. -/
abbrev take1Dims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `r`: the operand at `idx[r, 0]`, read signed and clamped into `[0, N − 1]`. -/
theorem gather_take1_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (y : (⟨1, ![R]⟩ : Shape).Idx) :
    Host.gather (take1Dims N R wf) x idx y
      = x (ix1 ⟨min (idx (ix2 (y 0) 0)).toInt.toNat (N - 1), by omega⟩) := by
  unfold Host.gather
  congr 1
  funext a
  obtain rfl : a = 0 := Subsingleton.elim _ _
  refine Fin.ext ?_
  show (take1Dims N R wf).start y idx 0 + (take1Dims N R wf).batchCoord y 0 + (take1Dims N R wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N R wf).startIndexMap from List.mem_singleton.mpr rfl)]
  have hsi : (take1Dims N R wf).siIdx y ⟨List.idxOf (0 : Fin 1) (take1Dims N R wf).startIndexMap,
      List.idxOf_lt_length_iff.2 (List.mem_singleton.mpr rfl)⟩ = ix2 (y 0) 0 := by
    funext b; refine Fin.ext ?_
    match b with
    | ⟨0, _⟩ => rfl
    | ⟨1, _⟩ => rfl
  rw [hsi]
  rfl

/-- The same read with the result index given by its coordinate `r`. -/
theorem gather_take1_apply_ix1 {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (take1Dims N R wf) x idx (ix1 r)
      = x (ix1 ⟨min (idx (ix2 r 0)).toInt.toNat (N - 1), by omega⟩) :=
  gather_take1_apply hN wf x idx (ix1 r)

end Take1

end Cert.LibRows
-- ==== Proof.LibLayout.lean ====
/-
  Small layout operations read at an index, and the gather of rows under a row-wise map.

  A reshape keeps the elements in row-major order, so a vector `[n]` reshaped to a single row `[1, n]` or to a single
  column `[n, 1]` (and back) reads the same element at the matching position; a broadcast along a new unit axis does the
  same. A unit-stride slice reads the operand at the index shifted by the offsets: the row blocks `0–63`, `64–127`, `128`
  and `129` of a `130 × 64` matrix, and the first half of a flat array. Gathering whole rows commutes with any map that
  acts on each row separately, because the gathered row is a row of the operand.
-/
import Idealize.ShloMosaic.Lib.ValueIdx
import Idealize.ShloMosaic.Lib.Pipeline.Value
import proofs.«162422_j9251359556274_2_alg».proof.Proof.LibRows

namespace Cert.LibLayout

open Idealize.ShloMosaic Idealize.ShloMosaic.ValueIdx Cert.LibRows

/-! ## Gathering rows commutes with a row-wise map -/

section RowsMap
variable {α β : Type}

/-- GATHERING ROWS COMMUTES WITH A ROW-WISE MAP: if every row of the operand is the image under `f` of the matching row of
    `x`, then every gathered row is the image under `f` of the matching gathered row of `x`. -/
theorem gather_rows_map {N R C D w : Nat} (hN : 0 < N)
    (wfC : GatherDims.WF ⟨2, ![N, C]⟩ ⟨2, ![R, 1]⟩ ⟨2, ![R, C]⟩ [1] [0] [] [0] [] 1 ![1, C])
    (wfD : GatherDims.WF ⟨2, ![N, D]⟩ ⟨2, ![R, 1]⟩ ⟨2, ![R, D]⟩ [1] [0] [] [0] [] 1 ![1, D])
    (f : (Fin C → α) → Fin D → β) (x : (⟨2, ![N, C]⟩ : Shape).Idx → α) (idx : IVec ⟨2, ![R, 1]⟩ w) :
    Host.gather (rowsDims N R D wfD) (fun i => f (fun k => x (ix2 (i 0) k)) (i 1)) idx
      = fun y => f (fun k => Host.gather (rowsDims N R C wfC) x idx (ix2 (y 0) k)) (y 1) := by
  funext y
  obtain ⟨r, q, rfl⟩ : ∃ r q, y = ix2 r q := ⟨y 0, y 1, eq_ix2 y⟩
  show Host.gather (rowsDims N R D wfD) (fun i => f (fun k => x (ix2 (i 0) k)) (i 1)) idx (ix2 r q)
      = f (fun k => Host.gather (rowsDims N R C wfC) x idx (ix2 r k)) q
  rw [gather_rows_apply_ix2 hN wfD,
    show (fun k => Host.gather (rowsDims N R C wfC) x idx (ix2 r k))
        = fun k => x (ix2 ⟨min (idx (ix2 r 0)).toInt.toNat (N - 1), by omega⟩ k)
      from funext fun k => gather_rows_apply_ix2 hN wfC x idx r k]
  rfl

end RowsMap

/-! ## Reshapes and broadcasts between a vector, a single row and a single column -/

section Reshape
variable {α : Type}

/-- A vector `[n]` reshaped to a single row `[1, n]`, read at `(0, j)`, is the vector at `j`. -/
theorem shapeCast_row_apply {n : Nat} (x : (⟨1, ![n]⟩ : Shape).Idx → α)
    (h : (⟨1, ![n]⟩ : Shape).ShapeCasts ⟨2, ![1, n]⟩) (j : Fin n) :
    shapeCast ⟨2, ![1, n]⟩ x h (ix2 0 j) = x (ix1 j) := by
  refine shapeCast_apply x h _ _ ?_
  rw [Shape.rowMajor_val_one, Shape.rowMajor_val_two]
  show j.val = 0 * n + j.val
  omega

/-- A vector `[n]` broadcast to a single row `[1, n]` (its axis sent to axis 1), read at `(0, j)`, is the vector at
    `j`. -/
theorem broadcastInDim_row_apply {n : Nat} (x : (⟨1, ![n]⟩ : Shape).Idx → α)
    (h : (⟨1, ![n]⟩ : Shape).BroadcastsInDim ⟨2, ![1, n]⟩ ![1]) (j : Fin n) :
    broadcastInDim ⟨2, ![1, n]⟩ ![1] h x (ix2 0 j) = x (ix1 j) := by
  refine broadcastInDim_apply _ h x _ _ (fun a => ?_)
  obtain rfl : a = 0 := Subsingleton.elim _ _
  show j.val = if n = 1 then 0 else j.val
  have := j.isLt
  split <;> omega

/-- A vector `[r]` reshaped to a single column `[r, 1]`, read at `(e, 0)`, is the vector at `e`. -/
theorem shapeCast_col_apply {r : Nat} (x : (⟨1, ![r]⟩ : Shape).Idx → α)
    (h : (⟨1, ![r]⟩ : Shape).ShapeCasts ⟨2, ![r, 1]⟩) (e : Fin r) :
    shapeCast ⟨2, ![r, 1]⟩ x h (ix2 e 0) = x (ix1 e) := by
  refine shapeCast_apply x h _ _ ?_
  rw [Shape.rowMajor_val_one, Shape.rowMajor_val_two]
  show e.val = e.val * 1 + 0
  omega

/-- A vector `[r]` broadcast to a single column `[r, 1]` (its axis sent to axis 0), read at `(e, 0)`, is the vector at
    `e`. -/
theorem broadcastInDim_col_apply {r : Nat} (x : (⟨1, ![r]⟩ : Shape).Idx → α)
    (h : (⟨1, ![r]⟩ : Shape).BroadcastsInDim ⟨2, ![r, 1]⟩ ![0]) (e : Fin r) :
    broadcastInDim ⟨2, ![r, 1]⟩ ![0] h x (ix2 e 0) = x (ix1 e) := by
  refine broadcastInDim_apply _ h x _ _ (fun a => ?_)
  obtain rfl : a = 0 := Subsingleton.elim _ _
  show e.val = if r = 1 then 0 else e.val
  have := e.isLt
  split <;> omega

/-- A single row `[1, n]` reshaped to a vector `[n]`, read at `j`, is the row at `(0, j)`. -/
theorem shapeCast_unrow_apply {n : Nat} (x : (⟨2, ![1, n]⟩ : Shape).Idx → α)
    (h : (⟨2, ![1, n]⟩ : Shape).ShapeCasts ⟨1, ![n]⟩) (j : Fin n) :
    shapeCast ⟨1, ![n]⟩ x h (ix1 j) = x (ix2 0 j) := by
  refine shapeCast_apply x h _ _ ?_
  rw [Shape.rowMajor_val_one, Shape.rowMajor_val_two]
  show 0 * n + j.val = j.val
  omega

/-- A single column `[r, 1]` reshaped to a vector `[r]`, read at `e`, is the column at `(e, 0)`. -/
theorem shapeCast_uncol_apply {r : Nat} (x : (⟨2, ![r, 1]⟩ : Shape).Idx → α)
    (h : (⟨2, ![r, 1]⟩ : Shape).ShapeCasts ⟨1, ![r]⟩) (e : Fin r) :
    shapeCast ⟨1, ![r]⟩ x h (ix1 e) = x (ix2 e 0) := by
  refine shapeCast_apply x h _ _ ?_
  rw [Shape.rowMajor_val_one, Shape.rowMajor_val_two]
  show e.val * 1 + 0 = e.val
  omega

end Reshape

/-! ## Unit-stride slices: row blocks of a matrix, a prefix of a flat array -/

section Slice
variable {α : Type}

/-- A block of `m` whole rows of a matrix `[M, C]` starting at row `o`, read at `(k, j)`, is the matrix at row `o + k`
    (given as any `i` with that value) and column `j`. -/
theorem slice_rows_apply {M m C o : Nat} (x : (⟨2, ![M, C]⟩ : Shape).Idx → α)
    (h : (⟨2, ![M, C]⟩ : Shape).Slices ![o, 0] ⟨2, ![m, C]⟩) (k : Fin m) (j : Fin C) (i : Fin M)
    (hi : i.val = o + k.val) :
    extractStridedSlice ⟨2, ![m, C]⟩ ![o, 0] x h (ix2 k j) = x (ix2 i j) := by
  refine extractStridedSlice_apply _ x h _ _ (fun a => ?_)
  match a with
  | ⟨0, _⟩ => exact hi
  | ⟨1, _⟩ => exact (Nat.zero_add j.val).symm

/-- Rows `0–63` of a `130 × 64` matrix, read at `(k, j)`: the matrix at `(k, j)`. -/
theorem slice_rows_0_apply (x : (⟨2, ![130, 64]⟩ : Shape).Idx → α)
    (h : (⟨2, ![130, 64]⟩ : Shape).Slices ![0, 0] ⟨2, ![64, 64]⟩) (k j : Fin 64) :
    extractStridedSlice ⟨2, ![64, 64]⟩ ![0, 0] x h (ix2 k j) = x (ix2 ⟨k.val, by omega⟩ j) :=
  slice_rows_apply x h k j ⟨k.val, by omega⟩ (Nat.zero_add k.val).symm

/-- Rows `64–127` of a `130 × 64` matrix, read at `(k, j)`: the matrix at `(k + 64, j)`. -/
theorem slice_rows_64_apply (x : (⟨2, ![130, 64]⟩ : Shape).Idx → α)
    (h : (⟨2, ![130, 64]⟩ : Shape).Slices ![64, 0] ⟨2, ![64, 64]⟩) (k j : Fin 64) :
    extractStridedSlice ⟨2, ![64, 64]⟩ ![64, 0] x h (ix2 k j) = x (ix2 ⟨k.val + 64, by omega⟩ j) :=
  slice_rows_apply x h k j ⟨k.val + 64, by omega⟩ (Nat.add_comm k.val 64)

/-- Row `128` of a `130 × 64` matrix as a single row, read at `(0, j)`: the matrix at `(128, j)`. -/
theorem slice_rows_128_apply (x : (⟨2, ![130, 64]⟩ : Shape).Idx → α)
    (h : (⟨2, ![130, 64]⟩ : Shape).Slices ![128, 0] ⟨2, ![1, 64]⟩) (j : Fin 64) :
    extractStridedSlice ⟨2, ![1, 64]⟩ ![128, 0] x h (ix2 0 j) = x (ix2 ⟨128, by omega⟩ j) :=
  slice_rows_apply x h 0 j ⟨128, by omega⟩ rfl

/-- Row `129` of a `130 × 64` matrix as a single row, read at `(0, j)`: the matrix at `(129, j)`. -/
theorem slice_rows_129_apply (x : (⟨2, ![130, 64]⟩ : Shape).Idx → α)
    (h : (⟨2, ![130, 64]⟩ : Shape).Slices ![129, 0] ⟨2, ![1, 64]⟩) (j : Fin 64) :
    extractStridedSlice ⟨2, ![1, 64]⟩ ![129, 0] x h (ix2 0 j) = x (ix2 ⟨129, by omega⟩ j) :=
  slice_rows_apply x h 0 j ⟨129, by omega⟩ rfl

/-- A block of `m` consecutive elements of a flat array `[M]` starting at `o`, read at `e`, is the array at `o + e`
    (given as any `i` with that value). -/
theorem slice_flat_apply {M m o : Nat} (x : (⟨1, ![M]⟩ : Shape).Idx → α)
    (h : (⟨1, ![M]⟩ : Shape).Slices ![o] ⟨1, ![m]⟩) (e : Fin m) (i : Fin M) (hi : i.val = o + e.val) :
    extractStridedSlice ⟨1, ![m]⟩ ![o] x h (ix1 e) = x (ix1 i) := by
  refine extractStridedSlice_apply _ x h _ _ (fun a => ?_)
  match a with
  | ⟨0, _⟩ => exact hi

/-- The first `800000` elements of a flat array of `1600000`, read at `e`: the array at `e`. -/
theorem slice_flat_0_apply (x : (⟨1, ![1600000]⟩ : Shape).Idx → α)
    (h : (⟨1, ![1600000]⟩ : Shape).Slices ![0] ⟨1, ![800000]⟩) (e : Fin 800000) :
    extractStridedSlice ⟨1, ![800000]⟩ ![0] x h (ix1 e) = x (ix1 ⟨e.val, by omega⟩) :=
  slice_flat_apply x h e ⟨e.val, by omega⟩ (Nat.zero_add e.val).symm

end Slice

end Cert.LibLayout
-- ==== Proof.LibScatterRows.lean ====
/-
  A scatter-add of whole rows, scaled row by row by a non-negative real.

  At the exact instance a scatter-add is, at every operand index `i`, the operand's element plus the sum of the
  update elements that land on `i`. Multiplication by a NON-NEGATIVE REAL `z` distributes over sums of extended
  reals (it does not for an infinite or a negative factor: `(2 + (-1)) * ⊤ = ⊤` but `2 * ⊤ + (-1) * ⊤ = ⊤ + ⊥ = ⊥`, and
  `(⊤ + ⊥) * (-1) = ⊤` but `⊤ * (-1) + ⊥ * (-1) = ⊥ + ⊤ = ⊥`), so scaling the result of a
  scatter-add at `i` by `z` is the scatter-add of the operand's element and of every update landing on `i`, each
  scaled by `z` first.

  For a scatter of whole rows — operand `[N, C]`, scatter indices `[R, 1]`, updates `[R, C]` — update element
  `(r, c)` lands on operand element `(idx[r, 0], c)`, the row number read as a signed integer and NOT clamped: a row
  number outside `[0, N)` drops the update. The same for a scatter of single elements into a flat array — operand `[N]`,
  scatter indices `[R, 1]`, updates `[R]` —: update element `r` lands on operand element `idx[r, 0]`.

  The node scale `rsqrt (max y 1)` is a non-negative real whatever `y` is, and an index that is already inside
  `[0, N)` is unchanged by the wrap-around normalization of negative indices and by the gather's clamp.
-/
import Idealize.ShloMosaic.PureOps.Ideal
import Idealize.ShloMosaic.Lib.ValueIdx
import Idealize.ShloMosaic.Lib.IdealHost

namespace Cert.LibScatterRows

open Idealize.ShloMosaic Idealize.ShloMosaic.ValueIdx

section Scale

/-- Multiplication on the right by a non-negative real distributes over a finite sum of extended reals. -/
theorem sum_mul_real {ι : Type} (t : Finset ι) (f : ι → EReal) (z : ℝ) (hz : 0 ≤ z) :
    (∑ j ∈ t, f j) * (z : EReal) = ∑ j ∈ t, f j * (z : EReal) := by
  classical
  induction t using Finset.induction_on with
  | empty => simp
  | insert a t ha ih =>
    rw [Finset.sum_insert ha, Finset.sum_insert ha,
      EReal.right_distrib_of_nonneg_of_ne_top (EReal.coe_nonneg.mpr hz) (EReal.coe_ne_top z), ih]

/-- SCALE AFTER = SCALE BEFORE: if at operand index `i` the operand `x'` is `x` scaled by the non-negative real
    `z`, and every update of `u'` landing on `i` is the one of `u` scaled by `z`, then the scatter-add of `x'` and
    `u'` at `i` is the scatter-add of `x` and `u` at `i`, scaled by `z`. -/
theorem scatterAdd_mul_real {s si su : Shape} (d : ScatterDims s si su) {w : Nat} (x x' : s.Idx → EReal)
    (idx : IVec si w) (u u' : su.Idx → EReal) (i : s.Idx) (z : ℝ) (hz : 0 ≤ z)
    (hx : x' i = x i * (z : EReal)) (hu : ∀ j, d.resultIdx? j idx = some i → u' j = u j * (z : EReal)) :
    Ideal.hostScatterAdd d x' idx u' i = Ideal.hostScatterAdd d x idx u i * (z : EReal) := by
  unfold Ideal.hostScatterAdd
  rw [EReal.right_distrib_of_nonneg_of_ne_top (EReal.coe_nonneg.mpr hz) (EReal.coe_ne_top z), sum_mul_real _ _ z hz, hx]
  congr 1
  exact Finset.sum_congr rfl fun j hj => hu j (Finset.mem_filter.mp hj).2

end Scale

section Rows

/-- The dimension numbers of a scatter of whole rows: operand `[N, C]`, scatter indices `[R, 1]`, updates `[R, C]`;
    the updates' axis 1 is the window axis (it runs along a row), the operand's axis 0 is inserted and is the one the
    scatter index names. Their conditions `wf` are decided on a program's literal shapes. -/
abbrev rowsScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An operand axis takes a window coordinate exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

variable {N R C w : Nat} (wf : ScatterDims.WF ⟨2, ![N, C]⟩ ⟨2, ![R, 1]⟩ ⟨2, ![R, C]⟩ [1] [0] [0] 1)

/-- On the row axis the window of update `(r, c)` starts at `idx[r, 0]`, read as a signed integer. -/
theorem rows_start_row (idx : IVec ⟨2, ![R, 1]⟩ w) (j : (⟨2, ![R, C]⟩ : Shape).Idx) :
    (rowsScatterDims N R C wf).start j idx (0 : Fin 2) = (idx (ix2 (j 0) 0)).toInt := by
  unfold ScatterDims.start
  rw [dif_pos (show (0 : Fin 2) ∈ (rowsScatterDims N R C wf).scatterDimsToOperandDims from
    List.mem_singleton.mpr rfl)]
  have hsi : (rowsScatterDims N R C wf).siIdx j
      ⟨List.idxOf (0 : Fin 2) (rowsScatterDims N R C wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the column axis the window starts at `0`: the scatter index does not name that axis. -/
theorem rows_start_col (idx : IVec ⟨2, ![R, 1]⟩ w) (j : (⟨2, ![R, C]⟩ : Shape).Idx) :
    (rowsScatterDims N R C wf).start j idx (1 : Fin 2) = 0 := by
  have hne : ¬ ((1 : Fin 2) = 0) := by decide
  unfold ScatterDims.start
  rw [dif_neg (fun h => hne (List.mem_singleton.mp h))]

/-- The row axis is inserted: the window coordinate on it is `0`. -/
theorem rows_window_row (j : (⟨2, ![R, C]⟩ : Shape).Idx) :
    (rowsScatterDims N R C wf).window j (0 : Fin 2) = 0 := by
  unfold ScatterDims.window
  rw [dif_neg (fun h => (mem_sKept _ _).mp h (List.mem_singleton.mpr rfl))]

/-- The column axis is the window axis: the window coordinate on it is the update's own column. -/
theorem rows_window_col (j : (⟨2, ![R, C]⟩ : Shape).Idx) :
    (rowsScatterDims N R C wf).window j (1 : Fin 2) = (j 1).val := by
  have hne : ¬ ((1 : Fin 2) = 0) := by decide
  unfold ScatterDims.window
  rw [dif_pos ((mem_sKept _ _).mpr (fun h => hne (List.mem_singleton.mp h)))]
  rfl

/-- WHERE A ROW UPDATE LANDS: if update element `j = (r, c)` lands on operand element `i`, then the row number
    `idx[r, 0]`, read as a signed integer (not clamped), is `i`'s row, and `c` is `i`'s column. -/
theorem rows_resultIdx_some (idx : IVec ⟨2, ![R, 1]⟩ w) (j : (⟨2, ![R, C]⟩ : Shape).Idx)
    (i : (⟨2, ![N, C]⟩ : Shape).Idx) (h : (rowsScatterDims N R C wf).resultIdx? j idx = some i) :
    (idx (ix2 (j 0) 0)).toInt = ((i 0).val : Int) ∧ (j 1).val = (i 1).val := by
  unfold ScatterDims.resultIdx? at h
  split at h
  · rename_i hb
    have hi := Option.some.inj h
    have h0 : (i (0 : Fin 2)).val
        = ((rowsScatterDims N R C wf).start j idx (0 : Fin 2) + (rowsScatterDims N R C wf).window j (0 : Fin 2)).toNat := by
      rw [← hi]
    have h1 : (i (1 : Fin 2)).val
        = ((rowsScatterDims N R C wf).start j idx (1 : Fin 2) + (rowsScatterDims N R C wf).window j (1 : Fin 2)).toNat := by
      rw [← hi]
    have hb0 := (hb (0 : Fin 2)).1
    rw [rows_start_row, rows_window_row] at h0 hb0
    rw [rows_start_col, rows_window_col] at h1
    constructor
    · omega
    · omega
  · exact absurd h (by simp)

end Rows

section Flat

/-- The dimension numbers of a scatter of single elements into a flat array: operand `[N]`, scatter indices
    `[R, 1]`, updates `[R]`; no window axis, the operand's only axis is inserted and is the one the scatter index
    names. -/
abbrev flatScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- WHERE AN ELEMENT UPDATE LANDS: if update element `j = (r)` lands on operand element `i`, then `idx[r, 0]`, read
    as a signed integer (not clamped), is `i`'s position. -/
theorem flat_resultIdx_some {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (i : (⟨1, ![N]⟩ : Shape).Idx)
    (h : (flatScatterDims N R wf).resultIdx? j idx = some i) :
    (idx (ix2 (j 0) 0)).toInt = ((i 0).val : Int) := by
  have hstart : (flatScatterDims N R wf).start j idx (0 : Fin 1) = (idx (ix2 (j 0) 0)).toInt := by
    unfold ScatterDims.start
    rw [dif_pos (show (0 : Fin 1) ∈ (flatScatterDims N R wf).scatterDimsToOperandDims from
      List.mem_singleton.mpr rfl)]
    have hsi : (flatScatterDims N R wf).siIdx j
        ⟨List.idxOf (0 : Fin 1) (flatScatterDims N R wf).scatterDimsToOperandDims,
          List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  have hwindow : (flatScatterDims N R wf).window j (0 : Fin 1) = 0 := by
    unfold ScatterDims.window
    rw [dif_neg (fun h => (mem_sKept _ _).mp h (List.mem_singleton.mpr rfl))]
  unfold ScatterDims.resultIdx? at h
  split at h
  · rename_i hb
    have hi := Option.some.inj h
    have h0 : (i (0 : Fin 1)).val
        = ((flatScatterDims N R wf).start j idx (0 : Fin 1) + (flatScatterDims N R wf).window j (0 : Fin 1)).toNat := by
      rw [← hi]
    have hb0 := (hb (0 : Fin 1)).1
    rw [hstart, hwindow] at h0 hb0
    omega
  · exact absurd h (by simp)

end Flat

section NodeScale

/-- The reciprocal square root of a positive extended real is a non-negative real: `0` at `⊤`, `(√r)⁻¹` at a
    positive real `r`. -/
theorem rsqrt_of_pos (m : EReal) (hm : 0 < m) : ∃ z : ℝ, 0 ≤ z ∧ Ideal.rsqrt m = (z : EReal) := by
  induction m using EReal.rec with
  | bot => exact absurd hm (by simp)
  | top => exact ⟨0, le_refl 0, by simp⟩
  | coe r =>
    have hr : 0 < r := EReal.coe_pos.mp hm
    refine ⟨(Real.sqrt r)⁻¹, inv_nonneg.mpr (Real.sqrt_nonneg r), ?_⟩
    rw [Ideal.rsqrt_coe, if_neg (not_lt.mpr hr.le), if_neg hr.ne']

/-- THE NODE SCALE IS A NON-NEGATIVE REAL whatever the degree `y` is (finite, infinite or junk): `max y 1` is at
    least `1`, so its reciprocal square root is `0` (at `⊤`) or the inverse of a real square root. -/
theorem rsqrt_max_one (y : EReal) : ∃ z : ℝ, 0 ≤ z ∧ Ideal.rsqrt (max y 1) = (z : EReal) :=
  rsqrt_of_pos (max y 1) (lt_of_lt_of_le zero_lt_one (le_max_right y 1))

/-- The f32 word `0x3F800000` is the extended real one. -/
theorem ofBits_one : Ideal.ofBits .f32 0x3F800000#32 = (1 : EReal) := Ideal.ofBits_one_f32

end NodeScale

section InRange

/-- A select on "`v` is negative" (signed comparison with the zero word) takes its second operand when `v`, read
    as a signed integer, is not negative. -/
theorem select_slt_zero_of_nonneg {α : Type} (v : BitVec 32) (a b : α) (hv : 0 ≤ v.toInt) :
    Scalar.select (IntOp.cmpi .slt v 0#32) a b = b := by
  have h : v.slt 0#32 = false := by
    simp only [BitVec.slt, BitVec.toInt_zero, decide_eq_false_iff_not, not_lt]
    exact hv
  show Scalar.select (BitVec.ofBool (v.slt 0#32)) a b = b
  rw [h]
  exact select_zero a b

/-- AN IN-RANGE INDEX IS ITS OWN NORMALIZATION: the wrap-around of negative indices, `v < 0 ? v + 50000 : v`, leaves a
    word `v` that reads as the signed integer `r ≥ 0` unchanged. -/
theorem normalize_of_inRange (v : BitVec 32) (r : Nat) (hv : v.toInt = (r : Int)) :
    Scalar.select (IntOp.cmpi .slt v 0#32) (IntOp.addi v 50000#32) v = v :=
  select_slt_zero_of_nonneg v _ _ (by omega)

/-- AN IN-RANGE INDEX IS ITS OWN CLAMP: a word that reads as the signed integer `r < N` names row `r` after the
    gather's clamp into `[0, N − 1]`. -/
theorem clamp_of_inRange (N : Nat) (v : BitVec 32) (r : Nat) (hr : r < N) (hv : v.toInt = (r : Int)) :
    min v.toInt.toNat (N - 1) = r := by
  omega

/-- The same at `N = 50000`. -/
theorem clamp_of_inRange_50000 (v : BitVec 32) (r : Nat) (hr : r < 50000) (hv : v.toInt = (r : Int)) :
    min v.toInt.toNat (50000 - 1) = r :=
  clamp_of_inRange 50000 v r hr hv

end InRange

end Cert.LibScatterRows
-- ==== Proof.LibGraphLayer.lean ====
/-
  One graph-convolution aggregation with the symmetric normalisation: per edge, or per node.

  A graph has `50000` nodes and `R` edges; edge `e` goes from node `src e` to node `dst e`. Every node `r` has a scale
  `dis r`, a non-negative real (the reciprocal square root of its clamped degree). The aggregation of the rows of a
  matrix `A : [50000, C]` sends to node `i`

      ∑_{e : dst e = i}  A[src e, ·] * (dis (src e) * dis (dst e)).

  Every edge in the sum has `dst e = i`, so its factor `dis (dst e)` is the one non-negative real `dis i`, which
  distributes over the sum of extended reals:

      ∑_{e : dst e = i}  A[src e, ·] * (dis (src e) * dis (dst e))  =  (∑_{e : dst e = i}  (A[src e, ·] * dis (src e))) * dis i.

  The left side scales every edge's row (the normalisation applied per edge); the right side scales the rows of `A`
  once per node before the aggregation and the aggregated rows once per node after it.

  As array operations: the sum over the edges into `i` is a scatter-add of whole rows into a zero operand at the
  destination rows; `A[src e, ·]` and `dis (src e)` are gathers at the source rows, and `dis (dst e)` is a gather at
  the destination rows after the wrap-around of negative row numbers. The scatter-add reads a row number signed and
  drops an edge whose destination is outside `[0, 50000)`; an edge that does land on `i` has its destination inside,
  where the wrap-around and the gather's clamp change nothing, so the gather reads `dis i`.
-/
import Idealize.ShloMosaic.PureOps.Ideal
import Idealize.ShloMosaic.Lib.ValueIdx
import proofs.«162422_j9251359556274_2_alg».proof.Proof.LibRows
import proofs.«162422_j9251359556274_2_alg».proof.Proof.LibScatterRows

namespace Cert.LibGraphLayer

open Idealize.ShloMosaic Idealize.ShloMosaic.ValueIdx Cert.LibRows Cert.LibScatterRows

/-- PER EDGE = PER NODE, with the two per-edge factors given as functions of the edge: `ns e` is the scale of the
    edge's source node (read with the gather's clamp), and `nd e` is the scale of node `r` whenever the edge's raw
    destination row number, read signed, is `r`. Then the scatter-add at the destination rows of the gathered rows of
    `A`, each scaled by `ns e * nd e`, is at every operand index `i` the scatter-add of the gathered rows of
    `A` pre-scaled by the node scale, scaled by the node scale of `i`'s row. -/
theorem aggregate_scaled_of {R C : Nat}
    (wfS : ScatterDims.WF ⟨2, ![50000, C]⟩ ⟨2, ![R, 1]⟩ ⟨2, ![R, C]⟩ [1] [0] [0] 1)
    (wfG : GatherDims.WF ⟨2, ![50000, C]⟩ ⟨2, ![R, 1]⟩ ⟨2, ![R, C]⟩ [1] [0] [] [0] [] 1 ![1, C])
    (A : (⟨2, ![50000, C]⟩ : Shape).Idx → EReal) (dis : (⟨1, ![50000]⟩ : Shape).Idx → EReal)
    (hdis : ∀ r, ∃ z : ℝ, 0 ≤ z ∧ dis r = (z : EReal))
    (srcI dstI : IVec ⟨2, ![R, 1]⟩ 32) (ns nd : Fin R → EReal)
    (hns : ∀ e : Fin R, ns e = dis (ix1 ⟨min (srcI (ix2 e 0)).toInt.toNat (50000 - 1), by omega⟩))
    (hnd : ∀ (e : Fin R) (r : Fin 50000), (dstI (ix2 e 0)).toInt = (r.val : Int) → nd e = dis (ix1 r))
    (i : (⟨2, ![50000, C]⟩ : Shape).Idx) :
    Ideal.hostScatterAdd (rowsScatterDims 50000 R C wfS) (fun _ => 0) dstI
        (fun j => Host.gather (rowsDims 50000 R C wfG) A srcI j * (ns (j 0) * nd (j 0))) i
      = Ideal.hostScatterAdd (rowsScatterDims 50000 R C wfS) (fun _ => 0) dstI
          (Host.gather (rowsDims 50000 R C wfG) (fun p => A p * dis (ix1 (p 0))) srcI) i
        * dis (ix1 (i 0)) := by
  obtain ⟨z, hz, hzi⟩ := hdis (ix1 (i 0))
  rw [hzi]
  refine scatterAdd_mul_real _ _ _ dstI _ _ i z hz (zero_mul _).symm ?_
  intro j hj
  obtain ⟨hrow, -⟩ := rows_resultIdx_some wfS dstI j i hj
  -- the destination's scale is the scale of `i`'s row
  have hd : nd (j 0) = (z : EReal) := by rw [hnd (j 0) (i 0) hrow, hzi]
  rw [gather_rows_apply (by norm_num) wfG, gather_rows_apply (by norm_num) wfG, hd, hns (j 0), mul_assoc]
  rfl

/-- PER EDGE = PER NODE, with the per-edge factors read by gathers: the scale of the source node at the source rows
    `srcI`, the scale of the destination node at the normalised destination rows `dstN`, which are the raw destination
    rows `dstI` after the wrap-around of negative row numbers (`v < 0 ? v + 50000 : v`). -/
theorem aggregate_scaled {R C : Nat}
    (wfS : ScatterDims.WF ⟨2, ![50000, C]⟩ ⟨2, ![R, 1]⟩ ⟨2, ![R, C]⟩ [1] [0] [0] 1)
    (wfG : GatherDims.WF ⟨2, ![50000, C]⟩ ⟨2, ![R, 1]⟩ ⟨2, ![R, C]⟩ [1] [0] [] [0] [] 1 ![1, C])
    (wfT : GatherDims.WF ⟨1, ![50000]⟩ ⟨2, ![R, 1]⟩ ⟨1, ![R]⟩ [] [0] [] [0] [] 1 ![1])
    (A : (⟨2, ![50000, C]⟩ : Shape).Idx → EReal) (dis : (⟨1, ![50000]⟩ : Shape).Idx → EReal)
    (hdis : ∀ r, ∃ z : ℝ, 0 ≤ z ∧ dis r = (z : EReal))
    (srcI dstI dstN : IVec ⟨2, ![R, 1]⟩ 32)
    (hN : ∀ e : Fin R, dstN (ix2 e 0)
      = Scalar.select (IntOp.cmpi .slt (dstI (ix2 e 0)) 0#32) (IntOp.addi (dstI (ix2 e 0)) 50000#32) (dstI (ix2 e 0)))
    (i : (⟨2, ![50000, C]⟩ : Shape).Idx) :
    Ideal.hostScatterAdd (rowsScatterDims 50000 R C wfS) (fun _ => 0) dstI
        (fun j => Host.gather (rowsDims 50000 R C wfG) A srcI j
                  * (Host.gather (take1Dims 50000 R wfT) dis srcI (ix1 (j 0))
                      * Host.gather (take1Dims 50000 R wfT) dis dstN (ix1 (j 0)))) i
      = Ideal.hostScatterAdd (rowsScatterDims 50000 R C wfS) (fun _ => 0) dstI
          (Host.gather (rowsDims 50000 R C wfG) (fun p => A p * dis (ix1 (p 0))) srcI) i
        * dis (ix1 (i 0)) := by
  refine aggregate_scaled_of wfS wfG A dis hdis srcI dstI
    (fun e => Host.gather (take1Dims 50000 R wfT) dis srcI (ix1 e))
    (fun e => Host.gather (take1Dims 50000 R wfT) dis dstN (ix1 e)) ?_ ?_ i
  · intro e
    exact gather_take1_apply_ix1 (by norm_num) wfT dis srcI e
  · intro e r hr
    have hv : dstN (ix2 e 0) = dstI (ix2 e 0) := by
      rw [hN e]
      exact normalize_of_inRange _ r.val hr
    rw [gather_take1_apply_ix1 (by norm_num) wfT dis dstN e]
    refine congrArg dis (congrArg ix1 (Fin.ext ?_))
    show min (dstN (ix2 e 0)).toInt.toNat (50000 - 1) = r.val
    rw [hv]
    exact clamp_of_inRange_50000 _ r.val r.isLt hr

end Cert.LibGraphLayer
-- ==== Proof.Bridge.lean ====
/-
  The reference's two results are the kernel's, as functions of the arguments.

  Layer by layer. The reference's aggregation adds, at node r, the rows (x·W)[src e, ·] · (d[src e] · d[dst e]) of the edges
  e arriving at r; the kernel's adds the rows ((x·W)[src e, ·] · d[src e]) and scales the sum by d[r]. The node scale d is a
  non-negative real at every node, the wrapped destination row of an edge that arrives at r is r, and a non-negative real
  factor distributes over a sum of extended reals: the two agree (the general statement is Proof/LibGraphLayer). What
  surrounds the aggregations — the dense transforms, the biases, the rectifier — is read index by index and is the same
  on both sides.
-/
import proofs.«162422_j9251359556274_2_alg».proof.Proof.Gen.ReferenceIdeal.Read
import proofs.«162422_j9251359556274_2_alg».proof.Proof.KernelValue
import proofs.«162422_j9251359556274_2_alg».proof.Proof.LibRows
import proofs.«162422_j9251359556274_2_alg».proof.Proof.LibLayout
import proofs.«162422_j9251359556274_2_alg».proof.Proof.LibScatterRows
import proofs.«162422_j9251359556274_2_alg».proof.Proof.LibGraphLayer

set_option maxRecDepth 16384

noncomputable section

namespace Cert.Bridge

open Idealize.ShloMosaic Idealize.ShloMosaic.ValueIdx
open Cert.ReferenceIdeal.Read
open Cert.KernelIdeal.Net
open Cert.LibRows Cert.LibScatterRows Cert.LibLayout Cert.LibGraphLayer

variable (x0 : (⟨Cert.ReferenceIdeal.S50000x128, .f32⟩ : BufTy).Contents (Elt Ideal))
  (x1 : (⟨Cert.ReferenceIdeal.S2x800000, .i32⟩ : BufTy).Contents (Elt Ideal))
  (x2 : (⟨Cert.ReferenceIdeal.S128x128, .f32⟩ : BufTy).Contents (Elt Ideal))
  (x3 : (⟨Cert.ReferenceIdeal.S128, .f32⟩ : BufTy).Contents (Elt Ideal))
  (x4 : (⟨Cert.ReferenceIdeal.S128x64, .f32⟩ : BufTy).Contents (Elt Ideal))
  (x5 : (⟨Cert.ReferenceIdeal.S64, .f32⟩ : BufTy).Contents (Elt Ideal))
  (x6 : (⟨Cert.ReferenceIdeal.S64x64, .f32⟩ : BufTy).Contents (Elt Ideal))
  (x7 : (⟨Cert.ReferenceIdeal.S64, .f32⟩ : BufTy).Contents (Elt Ideal))

/-! ## The node scale -/

/-- The scale column read at a node is the scale vector there. -/
theorem scaleCol_apply (r : Fin 50000) : scaleCol x1 (ix2 r 0) = scaleVec x1 (ix1 r) :=
  shapeCast_col_apply (scaleVec x1) _ r

/-- The inverse square root of a vector clipped below by a vector that is one at `r` is a non-negative real at `r`. -/
theorem rsqrt_max_apply {s : Shape} (d one : FVec Ideal s .f32) (r : s.Idx) (h1 : one r = (1 : EReal)) :
    ∃ z : ℝ, 0 ≤ z ∧ Host.rsqrt (maximumf d one) r = (z : EReal) := by
  show ∃ z : ℝ, 0 ≤ z ∧ Ideal.rsqrt (max (d r) (one r)) = (z : EReal)
  rw [h1]
  exact rsqrt_max_one _

/-- A scalar constant broadcast to any shape reads that constant everywhere. -/
theorem splat_apply {t : Shape} (h : (⟨0, ![]⟩ : Shape).BroadcastsInDim t ![]) (w : BitVec 32) (j : t.Idx) :
    broadcastInDim t ![] h (constant (F := Ideal) ⟨0, ![]⟩ .f32 w) j = Ideal.ofBits .f32 w :=
  broadcastInDim_apply _ h _ j ix0 (fun a => a.elim0)

/-- Every node's scale is a non-negative real: the inverse square root of something at least one. -/
theorem scale_real (r : (⟨1, ![50000]⟩ : Shape).Idx) : ∃ z : ℝ, 0 ≤ z ∧ scaleVec x1 r = (z : EReal) := by
  unfold scaleVec
  exact rsqrt_max_apply _ _ r ((splat_apply _ _ r).trans ofBits_one)

/-- The reference's wrapped destination row of an edge, in terms of the raw one the scatter uses. -/
theorem dst_wrapped (e : Fin 850000) :
    val_main_v26 (F := Ideal) x1 (ix2 e 0)
      = Scalar.select (IntOp.cmpi .slt (dstCol (endsOf 1 x1) (ix2 e 0)) 0#32) (IntOp.addi (dstCol (endsOf 1 x1) (ix2 e 0)) 50000#32) (dstCol (endsOf 1 x1) (ix2 e 0)) := by
  have hd : dstCol (endsOf 1 x1) (ix2 e 0) = endsOf 1 x1 (ix1 e) := broadcastInDim_col_apply (endsOf 1 x1) _ e
  have h6 : val_main_v6 (F := Ideal) x1 = endsOf 1 x1 := rfl
  have hi : idx_main_v26 (ix2 e 0) = ix1 e := funext fun a => Fin.ext (by match a with | ⟨0, _⟩ => rfl)
  rw [hd, val_main_v26_apply, val_main_v25_apply, val_main_v22_apply, val_main_v24_apply, val_main_v21_apply, val_main_c_3_apply,
    val_main_v23_apply, val_main_c_4_apply, h6, hi]

/-! ## The programs' scatter and gather records are the row forms -/

/-- Scatter of 128-wide rows into 50000 nodes from 850000 edges. -/
abbrev sc128 : ScatterDims ⟨2, ![50000, 128]⟩ ⟨2, ![850000, 1]⟩ ⟨2, ![850000, 128]⟩ := rowsScatterDims 50000 850000 128 (by decide)

/-- Scatter of 64-wide rows. -/
abbrev sc64 : ScatterDims ⟨2, ![50000, 64]⟩ ⟨2, ![850000, 1]⟩ ⟨2, ![850000, 64]⟩ := rowsScatterDims 50000 850000 64 (by decide)

/-- Gather of 128-wide rows. -/
abbrev ga128 : GatherDims ⟨2, ![50000, 128]⟩ ⟨2, ![850000, 1]⟩ ⟨2, ![850000, 128]⟩ := rowsDims 50000 850000 128 (by decide)

/-- Gather of 64-wide rows. -/
abbrev ga64 : GatherDims ⟨2, ![50000, 64]⟩ ⟨2, ![850000, 1]⟩ ⟨2, ![850000, 64]⟩ := rowsDims 50000 850000 64 (by decide)

/-- Gather of single elements of a per-node vector. -/
abbrev ga1 : GatherDims ⟨1, ![50000]⟩ ⟨2, ![850000, 1]⟩ ⟨1, ![850000]⟩ := take1Dims 50000 850000 (by decide)

/-- The printed dimension records are these forms (the next nine lemmas). -/
theorem rec_take : Cert.ReferenceIdeal.gather_S50000_S850000x1_S850000_n_0_n_n_0_1_1 = ga1 := rfl

theorem rec_rows128R : Cert.ReferenceIdeal.gather_S50000x128_S850000x1_S850000x128_1_0_n_n_0_1_1128 = ga128 := rfl

theorem rec_rows128K : Cert.KernelIdeal.gather_S50000x128_S850000x1_S850000x128_1_0_n_n_0_1_1128 = ga128 := rfl

theorem rec_rows64R : Cert.ReferenceIdeal.gather_S50000x64_S850000x1_S850000x64_1_0_n_n_0_1_164 = ga64 := rfl

theorem rec_rows64K : Cert.KernelIdeal.gather_S50000x64_S850000x1_S850000x64_1_0_n_n_0_1_164 = ga64 := rfl

theorem rec_sc128R : Cert.ReferenceIdeal.scatter_S50000x128_S850000x1_S850000x128_1_0_0_1 = sc128 := rfl

theorem rec_sc128K : Cert.KernelIdeal.scatter_S50000x128_S850000x1_S850000x128_1_0_0_1 = sc128 := rfl

theorem rec_sc64R : Cert.ReferenceIdeal.scatter_S50000x64_S850000x1_S850000x64_1_0_0_1 = sc64 := rfl

theorem rec_sc64K : Cert.KernelIdeal.scatter_S50000x64_S850000x1_S850000x64_1_0_0_1 = sc64 := rfl

/-! ## Both programs build the same edge lists and the same node scale -/

/-- The reference's scale vector, source column and destination column are the kernel program's terms (the next six lemmas). -/
theorem id_scale : val_main_v13 (F := Ideal) x1 = scaleVec x1 := rfl

theorem id_src19 : val_main_v19 (F := Ideal) x1 = srcCol (endsOf 0 x1) := rfl

theorem id_src35 : val_main_v35 (F := Ideal) x1 = srcCol (endsOf 0 x1) := rfl

theorem id_src53 : val_main_v53 (F := Ideal) x1 = srcCol (endsOf 0 x1) := rfl

theorem id_dst41 : val_main_v41 (F := Ideal) x1 = dstCol (endsOf 1 x1) := rfl

theorem id_dst59 : val_main_v59 (F := Ideal) x1 = dstCol (endsOf 1 x1) := rfl

/-- A change of float format is the identity at this instance. -/
theorem extf_id {s : Shape} (v : FVec Ideal s .bf16) (h : (FTy.bf16).bits < (FTy.f32).bits) : extf .f32 v h = v := rfl

/-- The host's accumulating scatter at this instance is the exact sum. -/
theorem scatterAdd_ideal {s si su : Shape} {w : Nat} (d : ScatterDims s si su) (x : FVec Ideal s .f32) (idx : IVec si w)
    (u : FVec Ideal su .f32) : Host.scatterAdd d x idx u = Ideal.hostScatterAdd d x idx u := rfl

/-! ## The first layer -/

/-- The per-edge factor of the reference: the scale of the edge's source node times the scale of its destination node,
    both gathered at the wrapped node numbers. -/
theorem edge_factor (e : Cert.ReferenceIdeal.S850000.Idx) :
    val_main_v28 (F := Ideal) x1 e
      = Host.gather ga1 (scaleVec x1) (srcCol (endsOf 0 x1)) e * Host.gather ga1 (scaleVec x1) (val_main_v26 (F := Ideal) x1) e := by
  rw [val_main_v28_apply]
  unfold val_main_v20 val_main_v27
  rw [id_scale, id_src19, rec_take]
  rfl

/-- The reference's zero operand of the first aggregation. -/
theorem zeros128 : val_main_v40 (F := Ideal) = fun _ => (0 : EReal) := by
  funext i
  rw [val_main_v40_apply, val_main_cst_7_apply]
  exact Ideal.ofBits_zero_f32

/-- The kernel program's zero operand of the first aggregation. -/
theorem zerosK128 : (broadcastInDim Cert.KernelIdeal.S50000x128 ![] Cert.KernelIdeal.Facts₀.bcast_S_S50000x128
      (constant (F := Ideal) Cert.KernelIdeal.S_ .f32 0x00000000#32)) = fun _ => (0 : EReal) := by
  funext i
  exact (splat_apply _ _ i).trans Ideal.ofBits_zero_f32

/-- The reference's first-layer updates: the transformed source row of every edge times the edge's factor. -/
theorem updates128 : val_main_v39 (F := Ideal) x0 x1 x2
    = fun j => Host.gather ga128 (val_main_v29 (F := Ideal) x0 x2) (srcCol (endsOf 0 x1)) j
        * (Host.gather ga1 (scaleVec x1) (srcCol (endsOf 0 x1)) (ix1 (j 0)) * Host.gather ga1 (scaleVec x1) (val_main_v26 (F := Ideal) x1) (ix1 (j 0))) := by
  funext j
  have hi : idx_main_v37 (idx_main_v38 j) = ix1 (j 0) := funext fun a => Fin.ext (by match a with | ⟨0, _⟩ => rfl)
  rw [val_main_v39_apply, val_main_v38_apply, val_main_v37_apply, edge_factor, hi]
  unfold val_main_v36
  rw [id_src35, rec_rows128R]
  rfl

/-- The kernel's pre-scaled first transform is the reference's transform, each row times its node's scale. -/
theorem scaledDense_eq : (Cert.Gcn.scaledDense x0 x2 (scaleCol x1) : Cert.Gcn.Mat 50000 128)
    = fun p => val_main_v29 (F := Ideal) x0 x2 p * scaleVec x1 (ix1 (p 0)) := by
  funext p
  obtain ⟨r, c, rfl⟩ : ∃ (r : Fin 50000) (c : Fin 128), p = ix2 r c := ⟨p 0, p 1, eq_ix2 p⟩
  have hl : ∀ k : Fin 128, lidx_main_v29 (ix2 r c) k = ix2 r k := fun k => funext fun a => by
    match a with
    | ⟨0, _⟩ => rfl
    | ⟨1, _⟩ => rfl
  have hr : ∀ k : Fin 128, ridx_main_v29 (ix2 r c) k = ix2 k c := fun k => funext fun a => by
    match a with
    | ⟨0, _⟩ => rfl
    | ⟨1, _⟩ => rfl
  rw [val_main_v29_apply]
  simp only [hl, hr]
  show (∑ k : Fin 128, x0 (ix2 r k) * x2 (ix2 k c)) * scaleCol x1 (ix2 r 0) = _
  rw [scaleCol_apply]

/-- FIRST LAYER: the reference's aggregation of rows scaled per edge is the kernel's aggregation of pre-scaled rows, scaled
    by the receiving node's scale. -/
theorem layer1 (i : Cert.ReferenceIdeal.S50000x128.Idx) :
    val_main_v42 (F := Ideal) x0 x1 x2 i
      = aggregate128 x1 (Cert.Gcn.scaledDense x0 x2 (scaleCol x1)) i * scaleVec x1 (ix1 (i 0)) := by
  unfold val_main_v42 aggregate128
  rw [zeros128, updates128, zerosK128, scaledDense_eq, id_dst41, rec_sc128R, rec_sc128K, rec_rows128K, extf_id, scatterAdd_ideal, scatterAdd_ideal]
  exact aggregate_scaled (C := 128) (by decide) (by decide) (by decide) (val_main_v29 (F := Ideal) x0 x2) (scaleVec x1) (scale_real x1)
    (srcCol (endsOf 0 x1)) (dstCol (endsOf 1 x1)) (val_main_v26 (F := Ideal) x1) (dst_wrapped x1) i

/-! ## The second layer -/

/-- The reference's zero operand of the second aggregation. -/
theorem zeros64 : val_main_v58 (F := Ideal) = fun _ => (0 : EReal) := by
  funext i
  rw [val_main_v58_apply, val_main_cst_10_apply]
  exact Ideal.ofBits_zero_f32

/-- The kernel program's zero operand of the second aggregation. -/
theorem zerosK64 : (broadcastInDim Cert.KernelIdeal.S50000x64 ![] Cert.KernelIdeal.Facts₀.bcast_S_S50000x64
      (constant (F := Ideal) Cert.KernelIdeal.S_ .f32 0x00000000#32)) = fun _ => (0 : EReal) := by
  funext i
  exact (splat_apply _ _ i).trans Ideal.ofBits_zero_f32

/-- The reference's second-layer updates: the transformed source row of every edge times the edge's factor. -/
theorem updates64 : val_main_v57 (F := Ideal) x0 x1 x2 x3 x4
    = fun j => Host.gather ga64 (val_main_v47 (F := Ideal) x0 x1 x2 x3 x4) (srcCol (endsOf 0 x1)) j
        * (Host.gather ga1 (scaleVec x1) (srcCol (endsOf 0 x1)) (ix1 (j 0)) * Host.gather ga1 (scaleVec x1) (val_main_v26 (F := Ideal) x1) (ix1 (j 0))) := by
  funext j
  have hi : idx_main_v55 (idx_main_v56 j) = ix1 (j 0) := funext fun a => Fin.ext (by match a with | ⟨0, _⟩ => rfl)
  rw [val_main_v57_apply, val_main_v56_apply, val_main_v55_apply, edge_factor, hi]
  unfold val_main_v54
  rw [id_src53, rec_rows64R]
  rfl

/-- The first bias as a row, read at a column. -/
theorem bias1_apply (k : Fin 128) :
    shapeCast Cert.KernelIdeal.S1x128 x3 Cert.KernelIdeal.Facts₀.shapeCasts_S128_S1x128 (ix2 0 k) = x3 (ix1 k) :=
  shapeCast_row_apply x3 _ k

/-- The reference's rectified first layer at a node, from the kernel's aggregation. -/
theorem relu_eq (r : Fin 50000) (k : Fin 128) :
    val_main_v46 (F := Ideal) x0 x1 x2 x3 (ix2 r k)
      = max (aggregate128 x1 (Cert.Gcn.scaledDense x0 x2 (scaleCol x1)) (ix2 r k) * scaleCol x1 (ix2 r 0)
          + shapeCast Cert.KernelIdeal.S1x128 x3 Cert.KernelIdeal.Facts₀.shapeCasts_S128_S1x128 (ix2 0 k)) 0 := by
  rw [val_main_v46_apply, val_main_v45_apply, layer1, val_main_v44_apply, val_main_v43_apply, val_main_call0_v0_apply,
    val_main_call0_cst_apply, scaleCol_apply, bias1_apply]
  have hi : idx_main_v43 (idx_main_v44 (ix2 r k)) = ix1 k := funext fun a => Fin.ext (by match a with | ⟨0, _⟩ => rfl)
  rw [hi]
  show max (_ + _) (Ideal.ofBits .f32 0x00000000#32) = _
  rw [Ideal.ofBits_zero_f32]

/-- The kernel's pre-scaled second transform is the reference's transform, each row times its node's scale. -/
theorem reluDense_eq : (Cert.Gcn.reluDense (aggregate128 x1 (Cert.Gcn.scaledDense x0 x2 (scaleCol x1))) (scaleCol x1)
      (shapeCast Cert.KernelIdeal.S1x128 x3 Cert.KernelIdeal.Facts₀.shapeCasts_S128_S1x128) x4 : Cert.Gcn.Mat 50000 64)
    = fun p => val_main_v47 (F := Ideal) x0 x1 x2 x3 x4 p * scaleVec x1 (ix1 (p 0)) := by
  funext p
  obtain ⟨r, c, rfl⟩ : ∃ (r : Fin 50000) (c : Fin 64), p = ix2 r c := ⟨p 0, p 1, eq_ix2 p⟩
  rw [val_main_v47_apply]
  have hl : ∀ k : Fin 128, lidx_main_v47 (ix2 r c) k = ix2 r k := fun k => funext fun a => by
    match a with
    | ⟨0, _⟩ => rfl
    | ⟨1, _⟩ => rfl
  have hr : ∀ k : Fin 128, ridx_main_v47 (ix2 r c) k = ix2 k c := fun k => funext fun a => by
    match a with
    | ⟨0, _⟩ => rfl
    | ⟨1, _⟩ => rfl
  simp only [hl, hr, relu_eq]
  show (∑ k : Fin 128, max (_ * scaleCol x1 (ix2 r 0) + _) 0 * x4 (ix2 k c)) * scaleCol x1 (ix2 r 0) = _
  rw [scaleCol_apply]

/-- SECOND LAYER: as the first, one transform later. -/
theorem layer2 (i : Cert.ReferenceIdeal.S50000x64.Idx) :
    val_main_v60 (F := Ideal) x0 x1 x2 x3 x4 i
      = aggregate64 x1 (Cert.Gcn.reluDense (aggregate128 x1 (Cert.Gcn.scaledDense x0 x2 (scaleCol x1))) (scaleCol x1)
          (shapeCast Cert.KernelIdeal.S1x128 x3 Cert.KernelIdeal.Facts₀.shapeCasts_S128_S1x128) x4) i * scaleVec x1 (ix1 (i 0)) := by
  unfold val_main_v60 aggregate64
  rw [zeros64, updates64, zerosK64, reluDense_eq, id_dst59, rec_sc64R, rec_sc64K, rec_rows64K, extf_id, scatterAdd_ideal, scatterAdd_ideal]
  exact aggregate_scaled (C := 64) (by decide) (by decide) (by decide) (val_main_v47 (F := Ideal) x0 x1 x2 x3 x4) (scaleVec x1) (scale_real x1)
    (srcCol (endsOf 0 x1)) (dstCol (endsOf 1 x1)) (val_main_v26 (F := Ideal) x1) (dst_wrapped x1) i

/-! ## The two results -/

/-- THE FIRST RESULT: the reference's second layer is the kernel's. -/
theorem hidden_eq : val_main_v63 (F := Ideal) x0 x1 x2 x3 x4 x5 = hidden x0 x1 x2 x3 x4 x5 := by
  funext i
  obtain ⟨r, c, rfl⟩ : ∃ (r : Fin 50000) (c : Fin 64), i = ix2 r c := ⟨i 0, i 1, eq_ix2 i⟩
  rw [val_main_v63_apply, layer2, val_main_v62_apply, val_main_v61_apply]
  have hi : idx_main_v61 (idx_main_v62 (ix2 r c)) = ix1 c := funext fun a => Fin.ext (by match a with | ⟨0, _⟩ => rfl)
  rw [hi]
  unfold Cert.KernelIdeal.Net.hidden Cert.Gcn.scaleBias
  show _ = _ * scaleCol x1 (ix2 r 0) + shapeCast Cert.KernelIdeal.S1x64 x5 Cert.KernelIdeal.Facts₀.shapeCasts_S64_S1x64 (ix2 0 c)
  rw [scaleCol_apply, show shapeCast Cert.KernelIdeal.S1x64 x5 Cert.KernelIdeal.Facts₀.shapeCasts_S64_S1x64 (ix2 0 c) = x5 (ix1 c) from shapeCast_row_apply x5 _ c]
  rfl

/-- THE SECOND RESULT: the classifier of equal second layers. -/
theorem logits_eq : val_main_v67 (F := Ideal) x0 x1 x2 x3 x4 x5 x6 x7 = logits (hidden x0 x1 x2 x3 x4 x5) x6 x7 := by
  funext i
  obtain ⟨r, c, rfl⟩ : ∃ (r : Fin 50000) (c : Fin 64), i = ix2 r c := ⟨i 0, i 1, eq_ix2 i⟩
  rw [val_main_v67_apply, val_main_v64_apply, val_main_v66_apply, val_main_v65_apply, hidden_eq]
  have hi : idx_main_v65 (idx_main_v66 (ix2 r c)) = ix1 c := funext fun a => Fin.ext (by match a with | ⟨0, _⟩ => rfl)
  have hl : ∀ k : Fin 64, lidx_main_v64 (ix2 r c) k = ix2 r k := fun k => funext fun a => by
    match a with
    | ⟨0, _⟩ => rfl
    | ⟨1, _⟩ => rfl
  have hr : ∀ k : Fin 64, ridx_main_v64 (ix2 r c) k = ix2 k c := fun k => funext fun a => by
    match a with
    | ⟨0, _⟩ => rfl
    | ⟨1, _⟩ => rfl
  simp only [hi, hl, hr]
  unfold Cert.KernelIdeal.Net.logits Cert.Gcn.denseBias
  show _ = _ + shapeCast Cert.KernelIdeal.S1x64 x7 Cert.KernelIdeal.Facts₀.shapeCasts_S64_S1x64 (ix2 0 c)
  rw [show shapeCast Cert.KernelIdeal.S1x64 x7 Cert.KernelIdeal.Facts₀.shapeCasts_S64_S1x64 (ix2 0 c) = x7 (ix1 c) from shapeCast_row_apply x7 _ c]
  rfl

end Cert.Bridge

end
-- ==== Proof.lean ====
/-
  A two-layer graph convolution with a linear classifier, on 50000 nodes and 800000 edges plus one self-loop per node:
  the idealized kernel program and the idealized reference compute the same two arrays (the second layer's output and the
  classifier's) on the extended reals.

  Both programs build the same edge lists and the same node scale d[r] = rsqrt (max (deg r) 1), deg r the number of edges
  arriving at r, and both aggregate by the same scatter-add over the same destination rows of rows gathered at the same
  source rows. They differ in where the symmetric normalisation sits. The reference multiplies every edge's row by
  d[src] · d[dst] before adding; the kernel multiplies every node's row by d[r] before the edges gather it, and the sum
  arriving at node r by d[r] afterwards:
      Σ_{e → r} (x·W)[src e, c] · (d[src e] · d[dst e])  =  ( Σ_{e → r} ((x·W)[src e, c] · d[src e]) ) · d[r].
  On the extended reals a product does not distribute over a sum in general; it does when the factor is a NON-NEGATIVE
  REAL, and d[r] is one whatever the degree is (the inverse square root of something at least one: zero at +∞, the inverse of
  a real square root otherwise). An edge contributes to node r exactly when its destination row, read as a signed integer,
  is r — then the wrapped, clamped row at which the reference gathers d[dst e] is r too — and associativity of the product
  does the rest. The dense transforms, the biases and the rectifier act on each node row by itself and are the same on both
  sides; a change of float format is the identity at this instance and a block product into a zero accumulator is the
  whole product's rows.

  The kernel program is four regions among stretches of host operations; its run's last boundary contents are read back
  boundary by boundary (Proof/KernelRun, Proof/KernelValue) with each region's output array as the per-node map of its
  input arrays (Proof/Region0 … Region3 over Proof/Spec); the reference's run is its generated term, read one operation at
  a time; Proof/Bridge joins the two, layer by layer, by the aggregation law of Proof/LibGraphLayer.
-/
import proofs.«162422_j9251359556274_2_alg».proof.Defs
import proofs.«162422_j9251359556274_2_alg».proof.Proof.Gen.Kernel
import proofs.«162422_j9251359556274_2_alg».proof.Proof.Gen.Kernel.Skeleton
import proofs.«162422_j9251359556274_2_alg».proof.Proof.Gen.Kernel.Launch
import proofs.«162422_j9251359556274_2_alg».proof.Proof.Gen.Kernel.Points
import proofs.«162422_j9251359556274_2_alg».proof.Proof.Gen.Kernel.Frame
import proofs.«162422_j9251359556274_2_alg».proof.Proof.Gen.KernelIdeal
import proofs.«162422_j9251359556274_2_alg».proof.Proof.Gen.KernelIdeal.Skeleton
import proofs.«162422_j9251359556274_2_alg».proof.Proof.Gen.KernelIdeal.Launch
import proofs.«162422_j9251359556274_2_alg».proof.Proof.Gen.KernelIdeal.Points
import proofs.«162422_j9251359556274_2_alg».proof.Proof.Gen.KernelIdeal.Frame
import proofs.«162422_j9251359556274_2_alg».proof.Proof.Gen.ReferenceIdeal
import proofs.«162422_j9251359556274_2_alg».proof.Proof.Gen.ReferenceIdeal.Run
import proofs.«162422_j9251359556274_2_alg».proof.Proof.Gen.ReferenceIdeal.Read
import proofs.«162422_j9251359556274_2_alg».proof.Proof.Gen.Pre_finite_inputs
import proofs.«162422_j9251359556274_2_alg».proof.Proof.KernelRun
import proofs.«162422_j9251359556274_2_alg».proof.Proof.KernelValue
import proofs.«162422_j9251359556274_2_alg».proof.Proof.Region0
import proofs.«162422_j9251359556274_2_alg».proof.Proof.Region1
import proofs.«162422_j9251359556274_2_alg».proof.Proof.Region2
import proofs.«162422_j9251359556274_2_alg».proof.Proof.Region3
import proofs.«162422_j9251359556274_2_alg».proof.Proof.Bridge
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both idealized programs end with the second layer's output and the
    classifier's output of those arguments: the kernel's by its run read back through the four regions, the reference's by
    its generated run and the layer-by-layer identity. -/
theorem algebraic : Cert.algebraic_KernelIdeal_ReferenceIdeal := by
  intro m ρ m' ρ' _ hagree
  refine ⟨fun c => Cert.KernelIdeal.Net.hidden (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    fun c => Cert.KernelIdeal.Net.logits (Cert.KernelIdeal.Net.hidden (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    ?_, ?_⟩
  · exact (θ_run Cert.KernelIdeal.defs _ _).mono
      (fun r h c => ⟨(h c).1.trans (Cert.KernelIdeal.Net.W7_v42 m ρ c Cert.KernelIdeal.RegionValue.final0 Cert.KernelIdeal.RegionValue.final1 Cert.KernelIdeal.RegionValue.final2),
        (h c).2.1.trans (Cert.KernelIdeal.Net.W7_v43 m ρ c Cert.KernelIdeal.RegionValue.final0 Cert.KernelIdeal.RegionValue.final1 Cert.KernelIdeal.RegionValue.final2 Cert.KernelIdeal.RegionValue.final3),
        (h c).2.2⟩)
      (Cert.KernelIdeal.RunValue.run_W7 m ρ)
  · refine (θ_run Cert.ReferenceIdeal.defs _ _).mono (fun r h c => ⟨?_, ?_, (h c).2.2⟩) (Cert.ReferenceIdeal.Value.run (F := Ideal) m' ρ')
    · refine (h c).1.trans ((Cert.ReferenceIdeal.Read.val_main_v63_eq m' c).trans ?_)
      rw [(hagree c).1, (hagree c).2.1, (hagree c).2.2.1, (hagree c).2.2.2.1, (hagree c).2.2.2.2.1, (hagree c).2.2.2.2.2.1]
      exact Cert.Bridge.hidden_eq _ _ _ _ _ _
    · refine (h c).2.1.trans ((Cert.ReferenceIdeal.Read.val_main_v67_eq m' c).trans ?_)
      rw [(hagree c).1, (hagree c).2.1, (hagree c).2.2.1, (hagree c).2.2.2.1, (hagree c).2.2.2.2.1, (hagree c).2.2.2.2.2.1,
        (hagree c).2.2.2.2.2.2.1, (hagree c).2.2.2.2.2.2.2]
      exact Cert.Bridge.logits_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
